-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S4x64x1024 : Shape := ⟨3, ![4, 64, 1024]⟩
abbrev S4x64 : Shape := ⟨2, ![4, 64]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S4x64x1024 : S_.BroadcastsInDim S4x64x1024 (![] : Fin 0 → Fin S4x64x1024.rank)
  reducesTo_S4x64x1024_S_d0_1_2 : S4x64x1024.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part2 {F : FTy → Type} [FloatOps F] (main_arg7 : FVec F S4x64 .f32) (main_v33 : IVec S_ 1) : IVec S_ 1 :=
  let main_v34 : FVec F S4x64 .f32 := Host.absf main_arg7
  let main_cst_12 : FVec F S_ .f32 := constant S_ .f32 0x7F800000#32
  let main_v35 : FVec F S4x64 .f32 := broadcastInDim S4x64 ![] bcast_S_S4x64 main_cst_12
  let main_v36 : IVec S4x64 1 := cmpf .olt main_v34 main_v35
  let main_c_13 : IVec S_ 1 := constantI S_ 1 1#1
  let main_v37 : IVec S_ 1 := (fun x v => Host.reduce IntOp.andi x v reducesTo_S4x64_S_d0_1 h_S_) main_v36 main_c_13
  let main_v38 : IVec S_ 1 := andi main_v33 main_v37
  main_v38

def fn_part1 {F : FTy → Type} [FloatOps F] (main_arg4 : FVec F S4x64x1024 .f32) (main_arg5 : FVec F S4x64 .f32) (main_arg6 : FVec F S4x64x1024 .f32) (main_arg7 : FVec F S4x64 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S4x64x1024 .f32 := Host.absf main_arg4
  let main_cst_6 : FVec F S_ .f32 := constant S_ .f32 0x7F800000#32
  let main_v20 : FVec F S4x64x1024 .f32 := broadcastInDim S4x64x1024 ![] bcast_S_S4x64x1024 main_cst_6
  let main_v21 : IVec S4x64x1024 1 := cmpf .olt main_v19 main_v20
  let main_c_7 : IVec S_ 1 := constantI S_ 1 1#1
  let main_v22 : IVec S_ 1 := (fun x v => Host.reduce IntOp.andi x v reducesTo_S4x64x1024_S_d0_1_2 h_S_) main_v21 main_c_7
  let main_v23 : IVec S_ 1 := andi main_v18 main_v22
  let main_v24 : FVec F S4x64 .f32 := Host.absf main_arg5
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S4x64x1024 .f32 := Host.absf main_arg6
  let main_cst_10 : FVec F S_ .f32 := constant S_ .f32 0x7F800000#32
  let main_v30 : FVec F S4x64x1024 .f32 := broadcastInDim S4x64x1024 ![] bcast_S_S4x64x1024 main_cst_10
  let main_v31 : IVec S4x64x1024 1 := cmpf .olt main_v29 main_v30
  let main_c_11 : IVec S_ 1 := constantI S_ 1 1#1
  let main_v32 : IVec S_ 1 := (fun x v => Host.reduce IntOp.andi x v reducesTo_S4x64x1024_S_d0_1_2 h_S_) main_v31 main_c_11
  let main_v33 : IVec S_ 1 := andi main_v28 main_v32
  fn_part2 (F := F) main_arg7 main_v33

def fn {F : FTy → Type} [FloatOps F] (main_arg0 : FVec F S16x1024x1024 .f32) (main_arg1 : FVec F S16x1024x1024 .f32) (main_arg2 : FVec F S4x64x1024 .f32) (main_arg3 : FVec F S4x64 .f32) (main_arg4 : FVec F S4x64x1024 .f32) (main_arg5 : FVec F S4x64 .f32) (main_arg6 : FVec F S4x64x1024 .f32) (main_arg7 : FVec F S4x64 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S4x64x1024 .f32 := Host.absf main_arg2
  let main_cst_2 : FVec F S_ .f32 := constant S_ .f32 0x7F800000#32
  let main_v10 : FVec F S4x64x1024 .f32 := broadcastInDim S4x64x1024 ![] bcast_S_S4x64x1024 main_cst_2
  let main_v11 : IVec S4x64x1024 1 := cmpf .olt main_v9 main_v10
  let main_c_3 : IVec S_ 1 := constantI S_ 1 1#1
  let main_v12 : IVec S_ 1 := (fun x v => Host.reduce IntOp.andi x v reducesTo_S4x64x1024_S_d0_1_2 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg4 main_arg5 main_arg6 main_arg7 main_v13 main_v16
-- ==== Kernel.lean ====
abbrev S16x1024x1024 : Shape := ⟨3, ![16, 1024, 1024]⟩
abbrev S4x64x1024 : Shape := ⟨3, ![4, 64, 1024]⟩
abbrev S4x64 : Shape := ⟨2, ![4, 64]⟩
abbrev S16x4x1024x64 : Shape := ⟨4, ![16, 4, 1024, 64]⟩
abbrev S1x1024x1024 : Shape := ⟨3, ![1, 1024, 1024]⟩
abbrev S1x4x1024x64 : Shape := ⟨4, ![1, 4, 1024, 64]⟩
abbrev S1024x1024 : Shape := ⟨2, ![1024, 1024]⟩
abbrev S1x64x1024 : Shape := ⟨3, ![1, 64, 1024]⟩
abbrev S64x1024 : Shape := ⟨2, ![64, 1024]⟩
abbrev S1x64 : Shape := ⟨2, ![1, 64]⟩
abbrev S64 : Shape := ⟨1, ![64]⟩
abbrev S1024x64 : Shape := ⟨2, ![1024, 64]⟩
abbrev S1024 : Shape := ⟨1, ![1024]⟩
abbrev S1024x1 : Shape := ⟨2, ![1024, 1]⟩
abbrev S1x1x1024x64 : Shape := ⟨4, ![1, 1, 1024, 64]⟩
abbrev S16x1024x4096 : Shape := ⟨3, ![16, 1024, 4096]⟩

abbrev nBuf : Space → Nat
  | .hbm => 11
  | .vmem => 26
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S4x64x1024, .f32⟩
  | .hbm, ⟨3, _⟩ => ⟨S4x64, .f32⟩
  | .hbm, ⟨4, _⟩ => ⟨S4x64x1024, .f32⟩
  | .hbm, ⟨5, _⟩ => ⟨S4x64, .f32⟩
  | .hbm, ⟨6, _⟩ => ⟨S4x64x1024, .f32⟩
  | .hbm, ⟨7, _⟩ => ⟨S4x64, .f32⟩
  | .hbm, ⟨8, _⟩ => ⟨S16x4x1024x64, .f32⟩
  | .hbm, ⟨9, _⟩ => ⟨S16x4x1024x64, .f32⟩
  | .hbm, ⟨10, _⟩ => ⟨S16x1024x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S4x64x1024, .f32⟩
  | .local _ .vmem, ⟨3, _⟩ => ⟨S4x64, .f32⟩
  | .local _ .vmem, ⟨4, _⟩ => ⟨S4x64x1024, .f32⟩
  | .local _ .vmem, ⟨5, _⟩ => ⟨S4x64, .f32⟩
  | .local _ .vmem, ⟨6, _⟩ => ⟨S4x64x1024, .f32⟩
  | .local _ .vmem, ⟨7, _⟩ => ⟨S4x64, .f32⟩
  | .local _ .vmem, ⟨8, _⟩ => ⟨S1x4x1024x64, .f32⟩
  | .local _ .vmem, ⟨9, _⟩ => ⟨S1x4x1024x64, .f32⟩
  | .local _ .vmem, ⟨10, _⟩ => ⟨S1x1024x1024, .f32⟩
  | .local _ .vmem, ⟨11, _⟩ => ⟨S1x1024x1024, .f32⟩
  | .local _ .vmem, ⟨12, _⟩ => ⟨S4x64x1024, .f32⟩
  | .local _ .vmem, ⟨13, _⟩ => ⟨S4x64, .f32⟩
  | .local _ .vmem, ⟨14, _⟩ => ⟨S4x64x1024, .f32⟩
  | .local _ .vmem, ⟨15, _⟩ => ⟨S4x64, .f32⟩
  | .local _ .vmem, ⟨16, _⟩ => ⟨S4x64x1024, .f32⟩
  | .local _ .vmem, ⟨17, _⟩ => ⟨S4x64, .f32⟩
  | .local _ .vmem, ⟨18, _⟩ => ⟨S1x4x1024x64, .f32⟩
  | .local _ .vmem, ⟨19, _⟩ => ⟨S1x4x1024x64, .f32⟩
  | .local _ .vmem, ⟨20, _⟩ => ⟨S1x1x1024x64, .f32⟩
  | .local _ .vmem, ⟨21, _⟩ => ⟨S1x1x1024x64, .f32⟩
  | .local _ .vmem, ⟨22, _⟩ => ⟨S1x1x1024x64, .f32⟩
  | .local _ .vmem, ⟨23, _⟩ => ⟨S1x1x1024x64, .f32⟩
  | .local _ .vmem, ⟨24, _⟩ => ⟨S1x1024x1024, .f32⟩
  | .local _ .vmem, ⟨25, _⟩ => ⟨S1x1024x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4 : Index := Scalar.indexCast arg9
  let c0_3 : Index := 0#32
  let c0_4 : Index := 0#32
  ![v4.toNat, 0, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let v16 : Index := Scalar.indexCast arg9
  let c0_9 : Index := 0#32
  ![v16.toNat, 0]
def k0_off3 (k0_t1 : Fin k0_t1_loop.trips) : Fin 4 → Nat :=
  let c0_20 : Index := 0#32
  let c0_i32 : BitVec 32 := 0#32
  let c1_i32 : BitVec 32 := 1#32
  let arg9 : BitVec 32 := Scf.iv c0_i32 c1_i32 k0_t1
  let v60 : Index := Scalar.indexCast arg9
  let c0_21 : Index := 0#32
  let c0_22 : Index := 0#32
  ![0, v60.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4x1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

@[reducible] def k1_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k1_off1 (k1_t1 : Fin k1_t1_loop.trips) : Fin 3 → Nat :=
  let c0_i32 : BitVec 32 := 0#32
  let c1_i32 : BitVec 32 := 1#32
  let arg9 : BitVec 32 := Scf.iv c0_i32 c1_i32 k1_t1
  let v4 : Index := Scalar.indexCast arg9
  let c0_3 : Index := 0#32
  let c0_4 : Index := 0#32
  ![v4.toNat, 0, 0]
def k1_off2 (k1_t1 : Fin k1_t1_loop.trips) : Fin 2 → Nat :=
  let c0_i32 : BitVec 32 := 0#32
  let c1_i32 : BitVec 32 := 1#32
  let arg9 : BitVec 32 := Scf.iv c0_i32 c1_i32 k1_t1
  let v16 : Index := Scalar.indexCast arg9
  let c0_9 : Index := 0#32
  ![v16.toNat, 0]
def k1_off3 (k1_t1 : Fin k1_t1_loop.trips) : Fin 4 → Nat :=
  let c0_20 : Index := 0#32
  let c0_i32 : BitVec 32 := 0#32
  let c1_i32 : BitVec 32 := 1#32
  let arg9 : BitVec 32 := Scf.iv c0_i32 c1_i32 k1_t1
  let v60 : Index := Scalar.indexCast arg9
  let c0_21 : Index := 0#32
  let c0_22 : Index := 0#32
  ![0, v60.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x64x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x64x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x64x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x4x1024x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![16, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x1x1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  h_S1x64x1024 : 0 < S1x64x1024.numel
  shapeCasts_S1x64x1024_S64x1024 : S1x64x1024.ShapeCasts S64x1024
  h_S1x64 : 0 < S1x64.numel
  shapeCasts_S1x64_S64 : S1x64.ShapeCasts S64
  transposes_S64x1024_p1_0_S1024x64 : S64x1024.Transposes [1, 0] S1024x64
  shapeCasts_S64_S1x64 : S64.ShapeCasts S1x64
  broadcasts_S1x64_S1024x64 : S1x64.Broadcasts S1024x64
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  h_S1x1x1024x64 : 0 < S1x1x1024x64.numel
  shapeCasts_S1x1x1024x64_S1024x64 : S1x1x1024x64.ShapeCasts S1024x64
  shapeCasts_S1024x64_S1x1x1024x64 : S1024x64.ShapeCasts S1x1x1024x64
  inb_S1x1x1024x64_S1x1x1024x64_0_0_0_0 : ∀ a, (![0, 0, 0, 0] : Fin 4 → Nat) a + S1x1x1024x64.size a ≤ S1x1x1024x64.size a
  shapeCasts_S1024x1024_S1x1024x1024 : S1024x1024.ShapeCasts S1x1024x1024
  dot_S1024x1024_S1024x64_S1024x64_1_0_0_1_n_n_wf : DotDims.WF S1024x1024 S1024x64 S1024x64 [1] [0] [0] [1] [] []
  dot_S1024x64_S64x1024_S1024x1024_1_0_0_1_n_n_wf : DotDims.WF S1024x64 S64x1024 S1024x1024 [1] [0] [0] [1] [] []
  hrank0 : 0 < grid0.rank
  k0_t1_ok : k0_t1_loop.OK
  k0_off1_inb : ∀ k0_t1 : Fin k0_t1_loop.trips, ∀ a, (k0_off1 k0_t1) a + S1x64x1024.size a ≤ S4x64x1024.size a
  k0_off2_inb : ∀ k0_t1 : Fin k0_t1_loop.trips, ∀ a, (k0_off2 k0_t1) a + S1x64.size a ≤ S4x64.size a
  k0_off3_inb : ∀ k0_t1 : Fin k0_t1_loop.trips, ∀ a, (k0_off3 k0_t1) a + S1x1x1024x64.size a ≤ S1x4x1024x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64x1024.size a ≤ S4x64x1024.size a
  hwx0_1 : ∀ i : grid0.Coords, EltTy.bits .f32 = 32 ∨ (Rect.block (s := S4x64x1024) S4x64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64x1024.size a ≤ S4x64x1024.size a
  hwx0_3 : ∀ i : grid0.Coords, EltTy.bits .f32 = 32 ∨ (Rect.block (s := S4x64x1024) S4x64x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x64.size a ≤ S4x64.size a
  hwx0_4 : ∀ i : grid0.Coords, EltTy.bits .f32 = 32 ∨ (Rect.block (s := S4x64) S4x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x64x1024.size a ≤ S4x64x1024.size a
  hwx0_5 : ∀ i : grid0.Coords, EltTy.bits .f32 = 32 ∨ (Rect.block (s := S4x64x1024) S4x64x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x64.size a ≤ S4x64.size a
  hwx0_6 : ∀ i : grid0.Coords, EltTy.bits .f32 = 32 ∨ (Rect.block (s := S4x64) S4x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4x1024x64.size a ≤ S16x4x1024x64.size a
  hwx0_7 : ∀ i : grid0.Coords, EltTy.bits .f32 = 32 ∨ (Rect.block (s := S16x4x1024x64) S1x4x1024x64.size (cc0_transform_7 i) (hinb0_7 i)).WholeWords (EltTy.packing .f32)
  hrank1 : 0 < grid1.rank
  k1_t1_ok : k1_t1_loop.OK
  k1_off1_inb : ∀ k1_t1 : Fin k1_t1_loop.trips, ∀ a, (k1_off1 k1_t1) a + S1x64x1024.size a ≤ S4x64x1024.size a
  k1_off2_inb : ∀ k1_t1 : Fin k1_t1_loop.trips, ∀ a, (k1_off2 k1_t1) a + S1x64.size a ≤ S4x64.size a
  k1_off3_inb : ∀ k1_t1 : Fin k1_t1_loop.trips, ∀ a, (k1_off3 k1_t1) a + S1x1x1024x64.size a ≤ S1x4x1024x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S16x1024x1024.size a
  hwx1_0 : ∀ i : grid1.Coords, EltTy.bits .f32 = 32 ∨ (Rect.block (s := S16x1024x1024) S1x1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x64x1024.size a ≤ S4x64x1024.size a
  hwx1_1 : ∀ i : grid1.Coords, EltTy.bits .f32 = 32 ∨ (Rect.block (s := S4x64x1024) S4x64x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x64.size a ≤ S4x64.size a
  hwx1_2 : ∀ i : grid1.Coords, EltTy.bits .f32 = 32 ∨ (Rect.block (s := S4x64) S4x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x64x1024.size a ≤ S4x64x1024.size a
  hwx1_3 : ∀ i : grid1.Coords, EltTy.bits .f32 = 32 ∨ (Rect.block (s := S4x64x1024) S4x64x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x64.size a ≤ S4x64.size a
  hwx1_4 : ∀ i : grid1.Coords, EltTy.bits .f32 = 32 ∨ (Rect.block (s := S4x64) S4x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4x64x1024.size a ≤ S4x64x1024.size a
  hwx1_5 : ∀ i : grid1.Coords, EltTy.bits .f32 = 32 ∨ (Rect.block (s := S4x64x1024) S4x64x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4x64.size a ≤ S4x64.size a
  hwx1_6 : ∀ i : grid1.Coords, EltTy.bits .f32 = 32 ∨ (Rect.block (s := S4x64) S4x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x4x1024x64.size a ≤ S16x4x1024x64.size a
  hwx1_7 : ∀ i : grid1.Coords, EltTy.bits .f32 = 32 ∨ (Rect.block (s := S16x4x1024x64) S1x4x1024x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x1024x64.size a ≤ S16x4x1024x64.size a
  hwx2_0 : ∀ i : grid2.Coords, EltTy.bits .f32 = 32 ∨ (Rect.block (s := S16x4x1024x64) S1x1x1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x1024x64.size a ≤ S16x4x1024x64.size a
  hwx2_1 : ∀ i : grid2.Coords, EltTy.bits .f32 = 32 ∨ (Rect.block (s := S16x4x1024x64) S1x1x1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x1024.size a ≤ S16x1024x4096.size a
  hwx2_2 : ∀ i : grid2.Coords, EltTy.bits .f32 = 32 ∨ (Rect.block (s := S16x1024x4096) S1x1024x1024.size (cc2_transform_2 i) (hinb2_2 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4x64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S4x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S4x64x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S4x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x4x1024x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4x64x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S4x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S4x64x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S4x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S4x64x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S4x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S1x4x1024x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v1) S1x1x1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1x1x1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16x1024x1024 : Shape := ⟨3, ![16, 1024, 1024]⟩
abbrev S4x64x1024 : Shape := ⟨3, ![4, 64, 1024]⟩
abbrev S4x64 : Shape := ⟨2, ![4, 64]⟩
abbrev S4x64x16x1024 : Shape := ⟨4, ![4, 64, 16, 1024]⟩
abbrev S16x4x1024x64 : Shape := ⟨4, ![16, 4, 1024, 64]⟩
abbrev S1x4x1x64 : Shape := ⟨4, ![1, 4, 1, 64]⟩
abbrev S16x4x1024x1024 : Shape := ⟨4, ![16, 4, 1024, 1024]⟩
abbrev S_ : Shape := ⟨0, ![]⟩
abbrev S16x4x1024 : Shape := ⟨3, ![16, 4, 1024]⟩
abbrev S16x4x1024x1 : Shape := ⟨4, ![16, 4, 1024, 1]⟩
abbrev S16x1024x4x1024 : Shape := ⟨4, ![16, 1024, 4, 1024]⟩
abbrev S16x1024x4096 : Shape := ⟨3, ![16, 1024, 4096]⟩

abbrev nBuf : Space → Nat
  | .hbm => 82
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S4x64x1024, .f32⟩
  | .hbm, ⟨3, _⟩ => ⟨S4x64, .f32⟩
  | .hbm, ⟨4, _⟩ => ⟨S4x64x1024, .f32⟩
  | .hbm, ⟨5, _⟩ => ⟨S4x64, .f32⟩
  | .hbm, ⟨6, _⟩ => ⟨S4x64x1024, .f32⟩
  | .hbm, ⟨7, _⟩ => ⟨S4x64, .f32⟩
  | .hbm, ⟨8, _⟩ => ⟨S4x64x16x1024, .f32⟩
  | .hbm, ⟨9, _⟩ => ⟨S16x4x1024x64, .f32⟩
  | .hbm, ⟨10, _⟩ => ⟨S1x4x1x64, .f32⟩
  | .hbm, ⟨11, _⟩ => ⟨S16x4x1024x64, .f32⟩
  | .hbm, ⟨12, _⟩ => ⟨S16x4x1024x64, .f32⟩
  | .hbm, ⟨13, _⟩ => ⟨S4x64x16x1024, .f32⟩
  | .hbm, ⟨14, _⟩ => ⟨S16x4x1024x64, .f32⟩
  | .hbm, ⟨15, _⟩ => ⟨S1x4x1x64, .f32⟩
  | .hbm, ⟨16, _⟩ => ⟨S16x4x1024x64, .f32⟩
  | .hbm, ⟨17, _⟩ => ⟨S16x4x1024x64, .f32⟩
  | .hbm, ⟨18, _⟩ => ⟨S4x64x16x1024, .f32⟩
  | .hbm, ⟨19, _⟩ => ⟨S16x4x1024x64, .f32⟩
  | .hbm, ⟨20, _⟩ => ⟨S1x4x1x64, .f32⟩
  | .hbm, ⟨21, _⟩ => ⟨S16x4x1024x64, .f32⟩
  | .hbm, ⟨22, _⟩ => ⟨S16x4x1024x64, .f32⟩
  | .hbm, ⟨23, _⟩ => ⟨S16x4x1024x1024, .f32⟩
  | .hbm, ⟨24, _⟩ => ⟨S_, .f32⟩
  | .hbm, ⟨25, _⟩ => ⟨S16x4x1024x1024, .f32⟩
  | .hbm, ⟨26, _⟩ => ⟨S16x4x1024x1024, .f32⟩
  | .hbm, ⟨27, _⟩ => ⟨S_, .f32⟩
  | .hbm, ⟨28, _⟩ => ⟨S16x4x1024, .f32⟩
  | .hbm, ⟨29, _⟩ => ⟨S_, .f32⟩
  | .hbm, ⟨30, _⟩ => ⟨S16x4x1024, .f32⟩
  | .hbm, ⟨31, _⟩ => ⟨S16x4x1024, .f32⟩
  | .hbm, ⟨32, _⟩ => ⟨S16x4x1024x1, .f32⟩
  | .hbm, ⟨33, _⟩ => ⟨S16x4x1024x1024, .f32⟩
  | .hbm, ⟨34, _⟩ => ⟨S16x4x1024x1024, .f32⟩
  | .hbm, ⟨35, _⟩ => ⟨S16x4x1024x1024, .f32⟩
  | .hbm, ⟨36, _⟩ => ⟨S_, .f32⟩
  | .hbm, ⟨37, _⟩ => ⟨S16x4x1024, .f32⟩
  | .hbm, ⟨38, _⟩ => ⟨S16x4x1024x1, .f32⟩
  | .hbm, ⟨39, _⟩ => ⟨S16x4x1024x1024, .f32⟩
  | .hbm, ⟨40, _⟩ => ⟨S16x4x1024x1024, .f32⟩
  | .hbm, ⟨41, _⟩ => ⟨S16x4x1024x64, .f32⟩
  | .hbm, ⟨42, _⟩ => ⟨S4x64x16x1024, .f32⟩
  | .hbm, ⟨43, _⟩ => ⟨S16x4x1024x64, .f32⟩
  | .hbm, ⟨44, _⟩ => ⟨S1x4x1x64, .f32⟩
  | .hbm, ⟨45, _⟩ => ⟨S16x4x1024x64, .f32⟩
  | .hbm, ⟨46, _⟩ => ⟨S16x4x1024x64, .f32⟩
  | .hbm, ⟨47, _⟩ => ⟨S4x64x16x1024, .f32⟩
  | .hbm, ⟨48, _⟩ => ⟨S16x4x1024x64, .f32⟩
  | .hbm, ⟨49, _⟩ => ⟨S1x4x1x64, .f32⟩
  | .hbm, ⟨50, _⟩ => ⟨S16x4x1024x64, .f32⟩
  | .hbm, ⟨51, _⟩ => ⟨S16x4x1024x64, .f32⟩
  | .hbm, ⟨52, _⟩ => ⟨S4x64x16x1024, .f32⟩
  | .hbm, ⟨53, _⟩ => ⟨S16x4x1024x64, .f32⟩
  | .hbm, ⟨54, _⟩ => ⟨S1x4x1x64, .f32⟩
  | .hbm, ⟨55, _⟩ => ⟨S16x4x1024x64, .f32⟩
  | .hbm, ⟨56, _⟩ => ⟨S16x4x1024x64, .f32⟩
  | .hbm, ⟨57, _⟩ => ⟨S16x4x1024x1024, .f32⟩
  | .hbm, ⟨58, _⟩ => ⟨S_, .f32⟩
  | .hbm, ⟨59, _⟩ => ⟨S16x4x1024x1024, .f32⟩
  | .hbm, ⟨60, _⟩ => ⟨S16x4x1024x1024, .f32⟩
  | .hbm, ⟨61, _⟩ => ⟨S_, .f32⟩
  | .hbm, ⟨62, _⟩ => ⟨S16x4x1024, .f32⟩
  | .hbm, ⟨63, _⟩ => ⟨S_, .f32⟩
  | .hbm, ⟨64, _⟩ => ⟨S16x4x1024, .f32⟩
  | .hbm, ⟨65, _⟩ => ⟨S16x4x1024, .f32⟩
  | .hbm, ⟨66, _⟩ => ⟨S16x4x1024x1, .f32⟩
  | .hbm, ⟨67, _⟩ => ⟨S16x4x1024x1024, .f32⟩
  | .hbm, ⟨68, _⟩ => ⟨S16x4x1024x1024, .f32⟩
  | .hbm, ⟨69, _⟩ => ⟨S16x4x1024x1024, .f32⟩
  | .hbm, ⟨70, _⟩ => ⟨S_, .f32⟩
  | .hbm, ⟨71, _⟩ => ⟨S16x4x1024, .f32⟩
  | .hbm, ⟨72, _⟩ => ⟨S16x4x1024x1, .f32⟩
  | .hbm, ⟨73, _⟩ => ⟨S16x4x1024x1024, .f32⟩
  | .hbm, ⟨74, _⟩ => ⟨S16x4x1024x1024, .f32⟩
  | .hbm, ⟨75, _⟩ => ⟨S16x4x1024x64, .f32⟩
  | .hbm, ⟨76, _⟩ => ⟨S16x4x1024x1024, .f32⟩
  | .hbm, ⟨77, _⟩ => ⟨S_, .f32⟩
  | .hbm, ⟨78, _⟩ => ⟨S16x4x1024x1024, .f32⟩
  | .hbm, ⟨79, _⟩ => ⟨S16x4x1024x1024, .f32⟩
  | .hbm, ⟨80, _⟩ => ⟨S16x1024x4x1024, .f32⟩
  | .hbm, ⟨81, _⟩ => ⟨S16x1024x4096, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_7 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]

class Facts₀ : Prop where
  transposes_S4x64x16x1024_S16x4x1024x64_2_0_3_1 : S4x64x16x1024.Transposes [2, 0, 3, 1] S16x4x1024x64
  bcast_S4x64_S1x4x1x64_1_3 : S4x64.BroadcastsInDim S1x4x1x64 (![1, 3] : Fin 2 → Fin S1x4x1x64.rank)
  bcast_S1x4x1x64_S16x4x1024x64_0_1_2_3 : S1x4x1x64.BroadcastsInDim S16x4x1024x64 (![0, 1, 2, 3] : Fin 4 → Fin S16x4x1024x64.rank)
  bcast_S_S16x4x1024x1024 : S_.BroadcastsInDim S16x4x1024x1024 (![] : Fin 0 → Fin S16x4x1024x1024.rank)
  reducesTo_S16x4x1024x1024_S16x4x1024_d3 : S16x4x1024x1024.ReducesTo [3] S16x4x1024
  h_S_ : 0 < S_.numel
  bcast_S_S16x4x1024 : S_.BroadcastsInDim S16x4x1024 (![] : Fin 0 → Fin S16x4x1024.rank)
  bcast_S16x4x1024_S16x4x1024x1_0_1_2 : S16x4x1024.BroadcastsInDim S16x4x1024x1 (![0, 1, 2] : Fin 3 → Fin S16x4x1024x1.rank)
  bcast_S16x4x1024x1_S16x4x1024x1024_0_1_2_3 : S16x4x1024x1.BroadcastsInDim S16x4x1024x1024 (![0, 1, 2, 3] : Fin 4 → Fin S16x4x1024x1024.rank)
  transposes_S16x4x1024x1024_S16x1024x4x1024_0_2_1_3 : S16x4x1024x1024.Transposes [0, 2, 1, 3] S16x1024x4x1024
  shapeCasts_S16x1024x4x1024_S16x1024x4096 : S16x1024x4x1024.ShapeCasts S16x1024x4096
  dot_S4x64x1024_S16x1024x1024_S4x64x16x1024_2_2_01_01_n_n_wf : DotDims.WF S4x64x1024 S16x1024x1024 S4x64x16x1024 [2] [2] [0, 1] [0, 1] [] []
  dot_S16x4x1024x64_S16x4x1024x64_S16x4x1024x1024_3_3_2_2_01_01_wf : DotDims.WF S16x4x1024x64 S16x4x1024x64 S16x4x1024x1024 [3] [3] [2] [2] [0, 1] [0, 1]
  dot_S16x4x1024x1024_S16x4x1024x64_S16x4x1024x64_3_2_2_3_01_01_wf : DotDims.WF S16x4x1024x1024 S16x4x1024x64 S16x4x1024x64 [3] [2] [2] [3] [0, 1] [0, 1]

variable [Facts₀]

def dot_S4x64x1024_S16x1024x1024_S4x64x16x1024_2_2_01_01_n_n : DotDims S4x64x1024 S16x1024x1024 S4x64x16x1024 where
  lhsContracting := [2]
  rhsContracting := [2]
  lhsNonContracting := [0, 1]
  rhsNonContracting := [0, 1]
  lhsBatch := []
  rhsBatch := []
  wf := dot_S4x64x1024_S16x1024x1024_S4x64x16x1024_2_2_01_01_n_n_wf
def dot_S16x4x1024x64_S16x4x1024x64_S16x4x1024x1024_3_3_2_2_01_01 : DotDims S16x4x1024x64 S16x4x1024x64 S16x4x1024x1024 where
  lhsContracting := [3]
  rhsContracting := [3]
  lhsNonContracting := [2]
  rhsNonContracting := [2]
  lhsBatch := [0, 1]
  rhsBatch := [0, 1]
  wf := dot_S16x4x1024x64_S16x4x1024x64_S16x4x1024x1024_3_3_2_2_01_01_wf
def dot_S16x4x1024x1024_S16x4x1024x64_S16x4x1024x64_3_2_2_3_01_01 : DotDims S16x4x1024x1024 S16x4x1024x64 S16x4x1024x64 where
  lhsContracting := [3]
  rhsContracting := [2]
  lhsNonContracting := [2]
  rhsNonContracting := [3]
  lhsBatch := [0, 1]
  rhsBatch := [0, 1]
  wf := dot_S16x4x1024x1024_S16x4x1024x64_S16x4x1024x64_3_2_2_3_01_01_wf

class Facts : Prop extends Facts₀ where

variable [Facts]
-- ==== Proof.Spec.lean ====
/-
  The mathematics both programs compute, as functions of the argument arrays, index by index, on the extended reals.

  For a batch entry `bt` and a head `h`, a feature array `x` (1024 rows of 1024 channels per batch entry) is
  projected three ways, `proj x W b = x · Wᵀ + b` (64 features per row); the scores of row `n` against row `n'`
  are the inner product of the query and key projections times 1/8; a row of scores is turned into weights by
  the softmax taken about the row's maximum (the maximum folded from `-∞`, and once more against `-∞`, as both
  programs spell it); the head's result is the weighted sum of the value projections. The last stage correlates
  the two results (from the query features and from the key features) head by head, times 1/8, and lays the
  four heads' 1024 × 1024 blocks side by side along the last axis.

  The two float words that occur (`0x3E000000` = 1/8, `0xFF800000` = -∞) are kept as words: each side carries the
  same word, so neither is ever evaluated.
-/
import Idealize.ShloMosaic.PureOps.Ideal
import Idealize.ShloMosaic.Lib.ValueIdx

noncomputable section

namespace Cert.Attn

open Idealize.ShloMosaic Idealize.ShloMosaic.ValueIdx

/-- The feature arrays: batch × row × channel. -/
abbrev SX : Shape := ⟨3, ![16, 1024, 1024]⟩
/-- The weights: head × feature × channel. -/
abbrev SW : Shape := ⟨3, ![4, 64, 1024]⟩
/-- The biases: head × feature. -/
abbrev SB : Shape := ⟨2, ![4, 64]⟩
/-- A self-attention result: batch × head × row × feature. -/
abbrev SZ : Shape := ⟨4, ![16, 4, 1024, 64]⟩
/-- The final result: batch × query row × (head, key row). -/
abbrev SO : Shape := ⟨3, ![16, 1024, 4096]⟩

/-- The word for 1/8, the score scale `1/√64`. -/
abbrev scaleW : EReal := Ideal.ofBits .f32 0x3E000000#32
/-- The word for `-∞`, where the running maximum starts. -/
abbrev negInfW : EReal := Ideal.ofBits .f32 0xFF800000#32

/-- One head's linear projection at (batch, head, row, feature): `∑_c x[bt,n,c] · W[h,d,c] + b[h,d]`. -/
def proj (x : FVec Ideal SX .f32) (W : FVec Ideal SW .f32) (b : FVec Ideal SB .f32)
    (bt : Fin 16) (h : Fin 4) (n : Fin 1024) (d : Fin 64) : EReal :=
  (∑ c : Fin 1024, x (ix3 bt n c) * W (ix3 h d c)) + b (ix2 h d)

/-- The scaled score of query row `n` against key row `n'`. -/
def score (x : FVec Ideal SX .f32) (Wq : FVec Ideal SW .f32) (bq : FVec Ideal SB .f32)
    (Wk : FVec Ideal SW .f32) (bk : FVec Ideal SB .f32) (bt : Fin 16) (h : Fin 4) (n n' : Fin 1024) : EReal :=
  (∑ d : Fin 64, proj x Wq bq bt h n d * proj x Wk bk bt h n' d) * scaleW

/-- A row's maximum as both programs take it: folded over the row from `-∞`, then once more against `-∞`. -/
def rowMax (s : Fin 1024 → EReal) : EReal :=
  max negInfW ((Finset.univ : Finset (Fin 1024)).fold max negInfW s)

/-- The softmax weight of entry `k` of a row of scores. -/
def softmaxRow (s : Fin 1024 → EReal) (k : Fin 1024) : EReal :=
  Ideal.div (Ideal.exp (s k - rowMax s)) (∑ j : Fin 1024, Ideal.exp (s j - rowMax s))

/-- Self-attention of all four heads over one feature array. -/
def attn (x : FVec Ideal SX .f32) (Wq : FVec Ideal SW .f32) (bq : FVec Ideal SB .f32)
    (Wk : FVec Ideal SW .f32) (bk : FVec Ideal SB .f32) (Wv : FVec Ideal SW .f32) (bv : FVec Ideal SB .f32) :
    FVec Ideal SZ .f32 := fun i =>
  ∑ n' : Fin 1024, softmaxRow (fun k => score x Wq bq Wk bk (i 0) (i 1) (i 2) k) n' * proj x Wv bv (i 0) (i 1) n' (i 3)

/-- The head a column of the final array belongs to, -/
def colHead (j : Fin 4096) : Fin 4 := ⟨j.val / 1024, by have := j.isLt; omega⟩
/-- and the key row inside that head's block. -/
def colRow (j : Fin 4096) : Fin 1024 := ⟨j.val % 1024, Nat.mod_lt _ (by decide)⟩

/-- The scaled correlation of query row `n` with key row `n'` in head `h`. -/
def corrAt (zq zk : FVec Ideal SZ .f32) (bt : Fin 16) (n : Fin 1024) (h : Fin 4) (n' : Fin 1024) : EReal :=
  (∑ d : Fin 64, zq (ix4 bt h n d) * zk (ix4 bt h n' d)) * scaleW

/-- The final array: the heads' correlation blocks side by side along the last axis. -/
def corr (zq zk : FVec Ideal SZ .f32) : FVec Ideal SO .f32 := fun i =>
  corrAt zq zk (i 0) (i 1) (colHead (i 2)) (colRow (i 2))

/-- The whole computation: attention over the query features and over the key features, then their correlation. -/
def result (key query : FVec Ideal SX .f32) (Wq : FVec Ideal SW .f32) (bq : FVec Ideal SB .f32)
    (Wk : FVec Ideal SW .f32) (bk : FVec Ideal SB .f32) (Wv : FVec Ideal SW .f32) (bv : FVec Ideal SB .f32) :
    FVec Ideal SO .f32 :=
  corr (attn query Wq bq Wk bk Wv bv) (attn key Wq bq Wk bk Wv bv)

end Cert.Attn

end
-- ==== Proof.RefValue.lean ====
/-
  The reference program computes the specification.

  Read one operation at a time, the reference is three stages. (1) For a feature array `x` it forms the three
  projections `W · x` contracted over the channel, transposed to (batch, head, row, feature), plus the bias broadcast
  over batch and row; the scores are the inner products of the first two projections over the 64 features times the
  word for 1/8; a row of scores is reduced by `max` from the word for `-∞` and once more against `-∞`; the scores less
  that maximum are exponentiated, summed along the row from the zero word, and divided by the sum; the weights then
  sum the third projection over the key rows. This is `Cert.Attn.attn x`, entry by entry: the only algebra is the
  exchange of the two factors in each product of a projection (`mul_comm` under the sum) and `0 + s = s` for the
  row sum's initial value; everything else is reading each layout operation at an index. (2) The same chain of
  operations is applied to the other feature array; it is literally the same function of its arguments. (3) The two
  results are correlated head by head over the 64 features, times the word for 1/8, transposed to
  (batch, query row, head, key row) and reshaped row-major to (batch, query row, 4096): column `j` is head
  `j / 1024`, key row `j % 1024` (arithmetic on the flat position, within the bounds of the three coordinates).

  Nothing here needs an entry to be finite, and the float words for 1/8 and `-∞` are never evaluated: each side
  carries the same word.
-/
import proofs.«167884_j42846593745002_1_alg».proof.Proof.Gen.ReferenceIdeal.Read
import proofs.«167884_j42846593745002_1_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open Cert.Attn

variable (x0 x1 : FVec Ideal S16x1024x1024 .f32) (w2 w4 w6 : FVec Ideal S4x64x1024 .f32) (b3 b5 b7 : FVec Ideal S4x64 .f32)

/-! ## The three projections

The reference forms each projection as `W · x` contracted over the channel, transposes the result to
(batch, head, row, feature) and adds the bias broadcast over batch and row. The three are the same stage applied
to three weight / bias pairs, and the stage applied to the second feature array is again the same stage. -/

theorem v9_eq_v4 : val_main_v9 (F := Ideal) x0 w4 b5 = val_main_v4 (F := Ideal) x0 w4 b5 := rfl
theorem v14_eq_v4 : val_main_v14 (F := Ideal) x0 w6 b7 = val_main_v4 (F := Ideal) x0 w6 b7 := rfl

/-- The projection stage at (batch, head, row, feature) is `∑_c x[bt,n,c] · W[h,d,c] + b[h,d]`: the factors of each
    product are exchanged, nothing else. -/
theorem proj_eq (bt : Fin 16) (h : Fin 4) (n : Fin 1024) (d : Fin 64) :
    val_main_v4 (F := Ideal) x0 w2 b3 (ix4 bt h n d) = proj x0 w2 b3 bt h n d := by
  have el : ∀ k : Fin 1024, lidx_main_v0 (idx_main_v1 (ix4 bt h n d)) k = ix3 h d k := fun k =>
    funext fun a => by match a with | ⟨0, _⟩ => rfl | ⟨1, _⟩ => rfl | ⟨2, _⟩ => rfl
  have er : ∀ k : Fin 1024, ridx_main_v0 (idx_main_v1 (ix4 bt h n d)) k = ix3 bt n k := fun k =>
    funext fun a => by match a with | ⟨0, _⟩ => rfl | ⟨1, _⟩ => rfl | ⟨2, _⟩ => rfl
  have eb : idx_main_v2 (idx_main_v3 (ix4 bt h n d)) = ix2 h d :=
    funext fun a => by match a with | ⟨0, _⟩ => rfl | ⟨1, _⟩ => rfl
  rw [val_main_v4_apply, val_main_v1_apply, val_main_v0_apply, val_main_v3_apply, val_main_v2_apply, eb]
  simp only [el, er, Ideal.addf_def]
  unfold proj
  exact congrArg (· + b3 (ix2 h d)) (Finset.sum_congr rfl fun c _ => mul_comm _ _)

/-! ## The scores -/

/-- The scaled score of row `n` against row `n'`: the inner product over the 64 features of the first two
    projections, times the word for 1/8. -/
theorem score_eq (bt : Fin 16) (h : Fin 4) (n n' : Fin 1024) :
    val_main_v17 (F := Ideal) x0 w2 b3 w4 b5 (ix4 bt h n n') = score x0 w2 b3 w4 b5 bt h n n' := by
  have el : ∀ k : Fin 64, lidx_main_v15 (ix4 bt h n n') k = ix4 bt h n k := fun k =>
    funext fun a => by match a with | ⟨0, _⟩ => rfl | ⟨1, _⟩ => rfl | ⟨2, _⟩ => rfl | ⟨3, _⟩ => rfl
  have er : ∀ k : Fin 64, ridx_main_v15 (ix4 bt h n n') k = ix4 bt h n' k := fun k =>
    funext fun a => by match a with | ⟨0, _⟩ => rfl | ⟨1, _⟩ => rfl | ⟨2, _⟩ => rfl | ⟨3, _⟩ => rfl
  rw [val_main_v17_apply, val_main_v15_apply, val_main_v16_apply, val_main_cst_apply]
  simp only [el, er, v9_eq_v4, proj_eq, Ideal.mulf_def, Ideal.ofBits_def]
  rfl

/-! ## A row's maximum -/

/-- The reduction over the last axis, from the word for `-∞`, is the fold of `max` over the row's 1024 scores; the
    reference then takes the maximum with `-∞` once more. -/
theorem rowmax_eq (bt : Fin 16) (h : Fin 4) (n : Fin 1024) :
    val_main_v20 (F := Ideal) x0 w2 b3 w4 b5 (ix3 bt h n) = rowMax (fun k => score x0 w2 b3 w4 b5 bt h n k) := by
  have hred : S16x4x1024x1024.Reduces [3] S16x4x1024 := by decide
  have e18 : val_main_v18 (F := Ideal) x0 w2 b3 w4 b5 (ix3 bt h n)
      = (Finset.univ : Finset (Fin 1024)).fold max negInfW (fun k => score x0 w2 b3 w4 b5 bt h n k) := by
    unfold val_main_v18
    refine (Host.reduce_eq_fold_single FloatOps.maximumf _ _ reducesTo_S16x4x1024x1024_S16x4x1024_d3 hred h_S_ (ix3 bt h n)).trans ?_
    rw [val_main_cst_0_apply]
    refine Finset.fold_congr fun k _ => ?_
    have ek : hred.lift (ix3 bt h n) k = ix4 bt h n k :=
      funext fun a => Fin.ext (by match a with | ⟨0, _⟩ => rfl | ⟨1, _⟩ => rfl | ⟨2, _⟩ => rfl | ⟨3, _⟩ => rfl)
    show val_main_v17 (F := Ideal) x0 w2 b3 w4 b5 (hred.lift (ix3 bt h n) k) = _
    rw [ek]
    exact score_eq x0 w2 w4 b3 b5 bt h n k
  rw [val_main_v20_apply, val_main_v19_apply, val_main_cst_1_apply, e18]
  rfl

/-! ## The softmax weights -/

/-- The exponent stage: each score less its row's maximum, exponentiated. -/
theorem exp_eq (bt : Fin 16) (h : Fin 4) (n j : Fin 1024) :
    val_main_v24 (F := Ideal) x0 w2 b3 w4 b5 (ix4 bt h n j)
      = Ideal.exp (score x0 w2 b3 w4 b5 bt h n j - rowMax (fun k => score x0 w2 b3 w4 b5 bt h n k)) := by
  have ei : idx_main_v21 (idx_main_v22 (ix4 bt h n j)) = ix3 bt h n :=
    funext fun a => by match a with | ⟨0, _⟩ => rfl | ⟨1, _⟩ => rfl | ⟨2, _⟩ => rfl
  rw [val_main_v24_apply, val_main_v23_apply, val_main_v22_apply, val_main_v21_apply, ei, score_eq, rowmax_eq]
  rfl

/-- The row's normaliser: the sum of the exponentials, the reduction's zero initial value dropped. -/
theorem expsum_eq (bt : Fin 16) (h : Fin 4) (n : Fin 1024) :
    val_main_v25 (F := Ideal) x0 w2 b3 w4 b5 (ix3 bt h n)
      = ∑ j : Fin 1024, Ideal.exp (score x0 w2 b3 w4 b5 bt h n j - rowMax (fun k => score x0 w2 b3 w4 b5 bt h n k)) := by
  have ei : ∀ j : Fin 1024, idx_main_v25 (ix3 bt h n) j = ix4 bt h n j := fun j =>
    funext fun a => by match a with | ⟨0, _⟩ => rfl | ⟨1, _⟩ => rfl | ⟨2, _⟩ => rfl | ⟨3, _⟩ => rfl
  rw [val_main_v25_apply, val_main_cst_2_apply]
  simp only [ei, exp_eq, Ideal.ofBits_def, Ideal.ofBits_zero_f32, zero_add]

/-- The weights: each exponential over its row's normaliser. -/
theorem softmax_eq (bt : Fin 16) (h : Fin 4) (n k : Fin 1024) :
    val_main_v28 (F := Ideal) x0 w2 b3 w4 b5 (ix4 bt h n k)
      = softmaxRow (fun j => score x0 w2 b3 w4 b5 bt h n j) k := by
  have ei : idx_main_v26 (idx_main_v27 (ix4 bt h n k)) = ix3 bt h n :=
    funext fun a => by match a with | ⟨0, _⟩ => rfl | ⟨1, _⟩ => rfl | ⟨2, _⟩ => rfl
  rw [val_main_v28_apply, val_main_v27_apply, val_main_v26_apply, ei, exp_eq, expsum_eq]
  rfl

/-! ## Self-attention of one feature array -/

/-- The weighted sum of the value projections over the key rows: the whole self-attention stage is the
    specification's `attn` of the feature array it was given. -/
theorem attn_eq : val_main_v29 (F := Ideal) x0 w2 b3 w4 b5 w6 b7 = attn x0 w2 b3 w4 b5 w6 b7 := by
  funext i
  obtain ⟨bt, h, n, d, rfl⟩ : ∃ (bt : Fin 16) (h : Fin 4) (n : Fin 1024) (d : Fin 64), i = ix4 bt h n d :=
    ⟨i 0, i 1, i 2, i 3, eq_ix4 i⟩
  have el : ∀ k : Fin 1024, lidx_main_v29 (ix4 bt h n d) k = ix4 bt h n k := fun k =>
    funext fun a => by match a with | ⟨0, _⟩ => rfl | ⟨1, _⟩ => rfl | ⟨2, _⟩ => rfl | ⟨3, _⟩ => rfl
  have er : ∀ k : Fin 1024, ridx_main_v29 (ix4 bt h n d) k = ix4 bt h k d := fun k =>
    funext fun a => by match a with | ⟨0, _⟩ => rfl | ⟨1, _⟩ => rfl | ⟨2, _⟩ => rfl | ⟨3, _⟩ => rfl
  rw [val_main_v29_apply]
  simp only [el, er, softmax_eq, v14_eq_v4, proj_eq]
  rfl

/-- The second self-attention stage of the reference (over the other feature array) is the same chain of
    operations, so it is `attn` of that array. -/
theorem attn_eq' : val_main_v59 (F := Ideal) x1 w2 b3 w4 b5 w6 b7 = attn x1 w2 b3 w4 b5 w6 b7 :=
  (show val_main_v59 (F := Ideal) x1 w2 b3 w4 b5 w6 b7 = val_main_v29 (F := Ideal) x1 w2 b3 w4 b5 w6 b7 from rfl).trans
    (attn_eq x1 w2 w4 w6 b3 b5 b7)

/-! ## The correlation and the final layout -/

/-- The last stage: the two self-attention results are correlated head by head over the 64 features, times the
    word for 1/8; the transpose to (batch, query row, head, key row) followed by the row-major reshape of the last
    two axes puts head `h`'s key row `n'` at column `h · 1024 + n'`, so column `j` reads head `j / 1024`, key row
    `j % 1024`. -/
theorem corr_eq (i : S16x1024x4096.Idx) :
    val_main_v64 (F := Ideal) x0 x1 w2 b3 w4 b5 w6 b7 i
      = corr (val_main_v59 (F := Ideal) x1 w2 b3 w4 b5 w6 b7) (val_main_v29 (F := Ideal) x0 w2 b3 w4 b5 w6 b7) i := by
  obtain ⟨bt, n, j, rfl⟩ : ∃ (bt : Fin 16) (n : Fin 1024) (j : Fin 4096), i = ix3 bt n j := ⟨i 0, i 1, i 2, eq_ix3 i⟩
  have e : idx_main_v63 (idx_main_v64 (ix3 bt n j)) = ix4 bt (colHead j) n (colRow j) := funext fun a => Fin.ext (by
    have hb := bt.isLt; have hn := n.isLt; have hj := j.isLt
    match a with
    | ⟨0, _⟩ => show ((bt.val * 1024 + n.val) * 4096 + j.val) / 4194304 = bt.val; omega
    | ⟨1, _⟩ => show ((bt.val * 1024 + n.val) * 4096 + j.val) / 1024 % 4 = j.val / 1024; omega
    | ⟨2, _⟩ => show ((bt.val * 1024 + n.val) * 4096 + j.val) / 4096 % 1024 = n.val; omega
    | ⟨3, _⟩ => show ((bt.val * 1024 + n.val) * 4096 + j.val) % 1024 = j.val % 1024; omega)
  have el : ∀ k : Fin 64, lidx_main_v60 (ix4 bt (colHead j) n (colRow j)) k = ix4 bt (colHead j) n k := fun k =>
    funext fun a => by match a with | ⟨0, _⟩ => rfl | ⟨1, _⟩ => rfl | ⟨2, _⟩ => rfl | ⟨3, _⟩ => rfl
  have er : ∀ k : Fin 64, ridx_main_v60 (ix4 bt (colHead j) n (colRow j)) k = ix4 bt (colHead j) (colRow j) k := fun k =>
    funext fun a => by match a with | ⟨0, _⟩ => rfl | ⟨1, _⟩ => rfl | ⟨2, _⟩ => rfl | ⟨3, _⟩ => rfl
  rw [val_main_v64_apply, val_main_v63_apply, e, val_main_v62_apply, val_main_v60_apply, val_main_v61_apply, val_main_cst_7_apply]
  simp only [el, er, Ideal.mulf_def, Ideal.ofBits_def]
  rfl

/-! ## The whole reference -/

/-- The reference's whole term, as a function of the eight argument arrays, is the specification's `result`: the
    correlation stage applied to the two self-attention stages, the first over the query features (the second
    argument), the second over the key features (the first argument). -/
theorem val_eq (x0 x1 : FVec Ideal S16x1024x1024 .f32) (w2 : FVec Ideal S4x64x1024 .f32) (b3 : FVec Ideal S4x64 .f32)
    (w4 : FVec Ideal S4x64x1024 .f32) (b5 : FVec Ideal S4x64 .f32) (w6 : FVec Ideal S4x64x1024 .f32) (b7 : FVec Ideal S4x64 .f32) :
    val_main_v64 (F := Ideal) x0 x1 w2 b3 w4 b5 w6 b7 = result x0 x1 w2 b3 w4 b5 w6 b7 := by
  funext i
  rw [corr_eq, attn_eq', attn_eq]
  rfl

/-- The reference run's result array is the specification's `result` of the argument arrays as the run found
    them. -/
theorem ref_eq (m : (ℓ : Loc nD τ sig) → Buf (Elt Ideal) ℓ) (c : Dev nD) :
    Cert.ReferenceIdeal.Value.res_main_v64 (F := Ideal) m c
      = Cert.Attn.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [Read.val_main_v64_eq]
  exact val_eq _ _ _ _ _ _ _ _

end Cert.ReferenceIdeal.RefValue

end
-- ==== Proof.CorrValuePayload.lean ====
/-
  The correlation kernel's body at an index.

  At one grid point the body holds two 1024 × 64 blocks (one head of one batch entry of each operand), multiplies the
  first by the transpose of the second, and scales by the word for 1/8: entry (n, n') of what it stores is
  (∑_d x0[n, d] · x1[n', d]) · (1/8). The changes of float format on the way into the product are the identity on the
  extended reals, and the product accumulates into the zero splat, so nothing but that sum is left.
-/
import proofs.«167884_j42846593745002_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.CorrValue

open Cert.KernelIdeal Cert.KernelIdeal.Gen Idealize.ShloMosaic Idealize.ShloMosaic.ValueIdx

/-- The left operand's row is the output's row, -/
theorem lhs_row (j : S1024x1024.Idx) (q : dot_S1024x64_S64x1024_S1024x1024_1_0_0_1_n_n.contr.Idx) :
    (dot_S1024x64_S64x1024_S1024x1024_1_0_0_1_n_n.lhsIdx j q 0).val = (j 0).val := by
  unfold DotDims.lhsIdx
  rw [dif_neg (show ¬(0 : Fin S1024x64.rank) ∈ dot_S1024x64_S64x1024_S1024x1024_1_0_0_1_n_n.lhsBatch by decide),
    dif_pos (show (0 : Fin S1024x64.rank) ∈ dot_S1024x64_S64x1024_S1024x1024_1_0_0_1_n_n.lhsNonContracting by decide)]
  rfl
/-- its column the contraction coordinate; -/
theorem lhs_col (j : S1024x1024.Idx) (q : dot_S1024x64_S64x1024_S1024x1024_1_0_0_1_n_n.contr.Idx) :
    (dot_S1024x64_S64x1024_S1024x1024_1_0_0_1_n_n.lhsIdx j q 1).val = (q ⟨0, by decide⟩).val :=
  dot_S1024x64_S64x1024_S1024x1024_1_0_0_1_n_n.lhsIdx_val_of_single rfl j q
/-- the right operand's row is the contraction coordinate, -/
theorem rhs_row (j : S1024x1024.Idx) (q : dot_S1024x64_S64x1024_S1024x1024_1_0_0_1_n_n.contr.Idx) :
    (dot_S1024x64_S64x1024_S1024x1024_1_0_0_1_n_n.rhsIdx j q 0).val = (q ⟨0, by decide⟩).val :=
  dot_S1024x64_S64x1024_S1024x1024_1_0_0_1_n_n.rhsIdx_val_of_single rfl j q
/-- its column the output's column. -/
theorem rhs_col (j : S1024x1024.Idx) (q : dot_S1024x64_S64x1024_S1024x1024_1_0_0_1_n_n.contr.Idx) :
    (dot_S1024x64_S64x1024_S1024x1024_1_0_0_1_n_n.rhsIdx j q 1).val = (j 1).val := by
  unfold DotDims.rhsIdx
  rw [dif_neg (show ¬(1 : Fin S64x1024.rank) ∈ dot_S1024x64_S64x1024_S1024x1024_1_0_0_1_n_n.rhsBatch by decide),
    dif_pos (show (1 : Fin S64x1024.rank) ∈ dot_S1024x64_S64x1024_S1024x1024_1_0_0_1_n_n.rhsNonContracting by decide)]
  rfl

/-- So at output (n, n') and contraction coordinate d the operands are read at (n, d) -/
theorem lhsIdx_eq (n n' : Fin 1024) (d : Fin 64) :
    dot_S1024x64_S64x1024_S1024x1024_1_0_0_1_n_n.lhsIdx (ix2 n n')
        ((contrEquiv1 dot_S1024x64_S64x1024_S1024x1024_1_0_0_1_n_n 64 rfl rfl).symm d) = ix2 n d :=
  funext fun a => Fin.ext (by
    match a with
    | ⟨0, _⟩ => exact lhs_row _ _
    | ⟨1, _⟩ => exact (lhs_col _ _).trans (contrEquiv1_symm_val dot_S1024x64_S64x1024_S1024x1024_1_0_0_1_n_n 64 rfl rfl d))
/-- and (d, n'). -/
theorem rhsIdx_eq (n n' : Fin 1024) (d : Fin 64) :
    dot_S1024x64_S64x1024_S1024x1024_1_0_0_1_n_n.rhsIdx (ix2 n n')
        ((contrEquiv1 dot_S1024x64_S64x1024_S1024x1024_1_0_0_1_n_n 64 rfl rfl).symm d) = ix2 d n' :=
  funext fun a => Fin.ext (by
    match a with
    | ⟨0, _⟩ => exact (rhs_row _ _).trans (contrEquiv1_symm_val dot_S1024x64_S64x1024_S1024x1024_1_0_0_1_n_n 64 rfl rfl d)
    | ⟨1, _⟩ => exact rhs_col _ _)

/-- A 1024 × 64 matrix times a 64 × 1024 one, accumulated into the zero splat, at (n, n'): the sum over the 64
    shared coordinates of the products. -/
theorem matmul_ix2 (l : FVec Ideal S1024x64 .bf16) (r : FVec Ideal S64x1024 .bf16) (n n' : Fin 1024) :
    matmul dot_S1024x64_S64x1024_S1024x1024_1_0_0_1_n_n none l r (constant (F := Ideal) S1024x1024 .f32 0x00000000#32) (ix2 n n')
      = ∑ d : Fin 64, l (ix2 n d) * r (ix2 d n') := by
  simp only [matmul]
  rw [Ideal.matmul_constant_zero_apply,
    ← Equiv.sum_comp (contrEquiv1 dot_S1024x64_S64x1024_S1024x1024_1_0_0_1_n_n 64 rfl rfl).symm]
  refine Finset.sum_congr rfl fun d _ => ?_
  rw [lhsIdx_eq, rhsIdx_eq]

/-- A [1, 1, 1024, 64] block as a 1024 × 64 matrix, at (n, d). -/
theorem block_as_matrix (x : Vec Ideal S1x1x1024x64 .f32) (n : Fin 1024) (d : Fin 64) :
    shapeCast S1024x64 x shapeCasts_S1x1x1024x64_S1024x64 (ix2 n d) = x (ix4 (0 : Fin 1) (0 : Fin 1) n d) :=
  shapeCast_apply x shapeCasts_S1x1x1024x64_S1024x64 _ _ (by
    rw [Shape.rowMajor_val_four, Shape.rowMajor_val_two]
    show ((0 * 1 + 0) * 1024 + n.val) * 64 + d.val = n.val * 64 + d.val
    omega)

/-- THE BODY AT AN INDEX: entry (n, n') of what a grid point stores is the inner product of row n of its first block
    with row n' of its second, times the word for 1/8. -/
theorem pay_apply (x0 x1 : Vec Ideal S1x1x1024x64 .f32) (u : Fin 1) (n n' : Fin 1024) :
    Gen.k2_pay1 (F := Ideal) x0 x1 (ix3 u n n')
      = (∑ d : Fin 64, x0 (ix4 (0 : Fin 1) (0 : Fin 1) n d) * x1 (ix4 (0 : Fin 1) (0 : Fin 1) n' d))
          * Ideal.ofBits .f32 0x3E000000#32 := by
  unfold Gen.k2_pay1
  refine (shapeCast_ab_1ab_apply _ shapeCasts_S1024x1024_S1x1024x1024 u n n').trans ?_
  refine (mulf_apply _ _ _).trans ?_
  refine congrArg₂ (· * ·) ?_ rfl
  refine (matmul_ix2 _ _ n n').trans ?_
  refine Finset.sum_congr rfl fun d _ => ?_
  refine congrArg₂ (· * ·) ?_ ?_
  · exact block_as_matrix x0 n d
  · refine (transpose_ix2_apply _ transposes_S1024x64_p1_0_S64x1024 d n').trans ?_
    exact block_as_matrix x1 n' d

end Cert.KernelIdeal.CorrValue

end
-- ==== Proof.CorrValue.lean ====
/-
  The correlation kernel's result array as one function of its two operand arrays.

  The grid has 16 × 4 points, one per batch entry bt and head h, run in row-major order: point t is (t / 4, t % 4).
  At that point the kernel reads block (bt, h, 0, 0) of each operand — all 1024 rows and 64 features of that batch
  entry and head — and writes block (bt, 0, h) of the result: all 1024 rows, columns 1024·h … 1024·h + 1023 of batch
  entry bt. Column j of the result therefore belongs to head j / 1024 and is key row j % 1024 there, which is how the
  specification lays the heads' blocks side by side. The blocks tile the result: (bt, n, j) lies in the block of
  point 4·bt + j / 1024. So the array the kernel leaves is the specification's correlation of the two operands.
-/
import proofs.«167884_j42846593745002_1_alg».proof.Proof.Gen.KernelIdeal.Frame
import proofs.«167884_j42846593745002_1_alg».proof.Proof.Spec
import proofs.«167884_j42846593745002_1_alg».proof.Proof.CorrValuePayload
import Idealize.ShloMosaic.Lib.Pipeline.Value

noncomputable section

namespace Cert.KernelIdeal.CorrValue

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-! ## One grid point -/

/-- The specification at an index whose coordinates are known: batch entry, query row, and the column split into
    head and key row. -/
theorem corr_at (zq zk : FVec Ideal Cert.Attn.SZ .f32) (i : Cert.Attn.SO.Idx) (bt : Fin 16) (n : Fin 1024) (h : Fin 4) (n' : Fin 1024)
    (h0 : (i 0).val = bt.val) (h1 : (i 1).val = n.val) (h2 : (i 2).val = h.val * 1024 + n'.val) :
    Cert.Attn.corr zq zk i = Cert.Attn.corrAt zq zk bt n h n' := by
  have e0 : (i 0 : Fin 16) = bt := Fin.ext h0
  have e1 : (i 1 : Fin 1024) = n := Fin.ext h1
  have e2 : Cert.Attn.colHead (i 2) = h := Fin.ext (by
    show (i 2).val / 1024 = h.val
    have := n'.isLt; omega)
  have e3 : Cert.Attn.colRow (i 2) = n' := Fin.ext (by
    show (i 2).val % 1024 = n'.val
    have := n'.isLt; omega)
  show Cert.Attn.corrAt zq zk (i 0) (i 1) (Cert.Attn.colHead (i 2)) (Cert.Attn.colRow (i 2)) = _
  exact congr (congr (congr (congrArg (Cert.Attn.corrAt zq zk) e0) e1) e2) e3

/-- What a point stores, when its two blocks are batch entry bt and head h of the operands: at (n, n') the scaled
    correlation of query row n with key row n' in that head. -/
theorem stored_at (zq zk : FVec Ideal Cert.Attn.SZ .f32) (x0 x1 : Vec Ideal S1x1x1024x64 .f32) (bt : Fin 16) (h : Fin 4)
    (hx0 : ∀ (n : Fin 1024) (d : Fin 64), x0 (ix4 (0 : Fin 1) (0 : Fin 1) n d) = zq (ix4 bt h n d))
    (hx1 : ∀ (n : Fin 1024) (d : Fin 64), x1 (ix4 (0 : Fin 1) (0 : Fin 1) n d) = zk (ix4 bt h n d))
    (u : Fin 1) (n n' : Fin 1024) :
    k2_pay1 (F := Ideal) x0 x1 (ix3 u n n') = Cert.Attn.corrAt zq zk bt n h n' := by
  rw [pay_apply]
  unfold Cert.Attn.corrAt
  refine congrArg₂ (· * ·) (Finset.sum_congr rfl fun d _ => ?_) rfl
  rw [hx0, hx1]

/-- The same against the specification's array: the entry a point stores at block index j is the specification at
    the array index i that j sits at (same row, column 1024·h further on, batch entry bt). -/
theorem stored_eq (zq zk : FVec Ideal Cert.Attn.SZ .f32) (x0 x1 : Vec Ideal S1x1x1024x64 .f32) (bt : Fin 16) (h : Fin 4)
    (hx0 : ∀ (n : Fin 1024) (d : Fin 64), x0 (ix4 (0 : Fin 1) (0 : Fin 1) n d) = zq (ix4 bt h n d))
    (hx1 : ∀ (n : Fin 1024) (d : Fin 64), x1 (ix4 (0 : Fin 1) (0 : Fin 1) n d) = zk (ix4 bt h n d))
    (j : S1x1024x1024.Idx) (i : Cert.Attn.SO.Idx)
    (h0 : (i 0).val = bt.val) (h1 : (i 1).val = (j 1).val) (h2 : (i 2).val = h.val * 1024 + (j 2).val) :
    k2_pay1 (F := Ideal) x0 x1 j = Cert.Attn.corr zq zk i := by
  rw [corr_at zq zk i bt (j 1) h (j 2) h0 h1 h2, eq_ix3 j]
  exact stored_at zq zk x0 x1 bt h hx0 hx1 (j 0) (j 1) (j 2)

/-! ## The index maps over the grid -/

/-- The printed index maps, decided over the 64 points: both operands' blocks are (t / 4, t % 4, 0, 0), the result's
    is (t / 4, 0, t % 4). -/
theorem index_facts : ∀ t : Fin cfg2.N,
    win2_0.index t (0 : Fin 4) = t.val / 4 ∧ win2_0.index t (1 : Fin 4) = t.val % 4
    ∧ win2_0.index t (2 : Fin 4) = 0 ∧ win2_0.index t (3 : Fin 4) = 0
    ∧ win2_1.index t (0 : Fin 4) = t.val / 4 ∧ win2_1.index t (1 : Fin 4) = t.val % 4
    ∧ win2_1.index t (2 : Fin 4) = 0 ∧ win2_1.index t (3 : Fin 4) = 0
    ∧ win2_2.index t (0 : Fin 3) = t.val / 4 ∧ win2_2.index t (1 : Fin 3) = 0 ∧ win2_2.index t (2 : Fin 3) = t.val % 4 :=
  (by decide +kernel : ∀ t : Fin grid2.N, _)

/-! ## The operands' blocks -/

/-- The first operand's block at point t is batch entry t / 4, head t % 4 of its array. -/
theorem block0_apply (c : Dev nD) (t : Fin cfg2.N) (bt : Fin 16) (h : Fin 4) (hbt : bt.val = t.val / 4) (hh : h.val = t.val % 4)
    (n : Fin 1024) (d : Fin 64) :
    (iblk2 (F := Ideal) V c 0 t : Vec Ideal S1x1x1024x64 .f32) (ix4 (0 : Fin 1) (0 : Fin 1) n d)
      = (V c main_v1 : S16x4x1024x64.Idx → EReal) (ix4 bt h n d) := by
  obtain ⟨e0, e1, e2, e3, -⟩ := index_facts t
  unfold iblk2
  rw [View.read_apply]
  show (V c main_v1 : S16x4x1024x64.Idx → EReal) _ = (V c main_v1 : S16x4x1024x64.Idx → EReal) _
  refine congrArg (V c main_v1 : S16x4x1024x64.Idx → EReal) (funext fun a => Fin.ext ?_)
  match a with
  | ⟨0, _⟩ => show win2_0.index t (0 : Fin 4) * 1 + 1 * 0 = bt.val; omega
  | ⟨1, _⟩ => show win2_0.index t (1 : Fin 4) * 1 + 1 * 0 = h.val; omega
  | ⟨2, _⟩ => show win2_0.index t (2 : Fin 4) * 1024 + 1 * n.val = n.val; omega
  | ⟨3, _⟩ => show win2_0.index t (3 : Fin 4) * 64 + 1 * d.val = d.val; omega

/-- The second operand's likewise. -/
theorem block1_apply (c : Dev nD) (t : Fin cfg2.N) (bt : Fin 16) (h : Fin 4) (hbt : bt.val = t.val / 4) (hh : h.val = t.val % 4)
    (n : Fin 1024) (d : Fin 64) :
    (iblk2 (F := Ideal) V c 1 t : Vec Ideal S1x1x1024x64 .f32) (ix4 (0 : Fin 1) (0 : Fin 1) n d)
      = (V c main_v0 : S16x4x1024x64.Idx → EReal) (ix4 bt h n d) := by
  obtain ⟨-, -, -, -, e0, e1, e2, e3, -⟩ := index_facts t
  unfold iblk2
  rw [View.read_apply]
  show (V c main_v0 : S16x4x1024x64.Idx → EReal) _ = (V c main_v0 : S16x4x1024x64.Idx → EReal) _
  refine congrArg (V c main_v0 : S16x4x1024x64.Idx → EReal) (funext fun a => Fin.ext ?_)
  match a with
  | ⟨0, _⟩ => show win2_1.index t (0 : Fin 4) * 1 + 1 * 0 = bt.val; omega
  | ⟨1, _⟩ => show win2_1.index t (1 : Fin 4) * 1 + 1 * 0 = h.val; omega
  | ⟨2, _⟩ => show win2_1.index t (2 : Fin 4) * 1024 + 1 * n.val = n.val; omega
  | ⟨3, _⟩ => show win2_1.index t (3 : Fin 4) * 64 + 1 * d.val = d.val; omega

/-! ## What a point writes back -/

/-- WHAT POINT t WRITES BACK is block t of the specification's array of the operands as the region finds them. -/
theorem flushed_eq (c : Dev nD) (t : Fin cfg2.N) :
    (dat2 (F := Ideal) V c).flushed 2 t
      = ((cfg2.win 2).blk t).view.read (Elt Ideal) (Cert.Attn.corr (V c main_v1) (V c main_v0)) := by
  have hN : cfg2.N = 64 := N_2
  have ht : t.val < 64 := hN ▸ t.isLt
  obtain ⟨-, -, -, -, -, -, -, -, o0, o1, o2⟩ := index_facts t
  show (cfg2.win 2).cut (grid2.coords t) ((dat2 V c).after 2 t) = _
  rw [after2_2]
  unfold out2_2
  rw [View.canon_unit_zero zeros3]
  simp only [View.ld_unit_zero (S := S1x1x1024x64) zeros4]
  funext j
  show k2_pay1 (F := Ideal) (iblk2 V c 0 t) (iblk2 V c 1 t) j
    = Cert.Attn.corr (V c main_v1) (V c main_v0) (((cfg2.win 2).blk t).view.emb j)
  have hj0 : (j 0).val < 1 := (j 0).isLt
  exact stored_eq (V c main_v1) (V c main_v0) (iblk2 V c 0 t) (iblk2 V c 1 t) ⟨t.val / 4, by omega⟩ ⟨t.val % 4, by omega⟩
    (fun n d => block0_apply V c t ⟨t.val / 4, by omega⟩ ⟨t.val % 4, by omega⟩ rfl rfl n d)
    (fun n d => block1_apply V c t ⟨t.val / 4, by omega⟩ ⟨t.val % 4, by omega⟩ rfl rfl n d)
    j (((cfg2.win 2).blk t).view.emb j)
    (by show win2_2.index t (0 : Fin 3) * 1 + 1 * (j 0).val = t.val / 4; omega)
    (by show win2_2.index t (1 : Fin 3) * 1024 + 1 * (j 1).val = (j 1).val; omega)
    (by show win2_2.index t (2 : Fin 3) * 1024 + 1 * (j 2).val = t.val % 4 * 1024 + (j 2).val; omega)

/-! ## The blocks tile the result -/

/-- An index of the result is in point t's block iff each coordinate is in the block's range on its axis. -/
theorem mem_blk (t : Fin cfg2.N) (i : S16x1024x4096.Idx) :
    i ∈ ((cfg2.win 2).blk t).view.set ↔ ∀ a : Fin 3, win2_2.index t a * S1x1024x1024.size a ≤ (i a).val
      ∧ (i a).val < win2_2.index t a * S1x1024x1024.size a + S1x1024x1024.size a := by
  show i ∈ ((View.whole main_v2).slice (win2_2.rect t)).set ↔ _
  rw [View.set_slice_whole, Rect.mem_set_unit]
  exact Iff.rfl

/-- Every index (bt, n, j) of the result is in the block of the point 4·bt + j / 1024, which writes back. -/
theorem cover (i : S16x1024x4096.Idx) :
    ∃ t : Fin cfg2.N, (cfg2.win 2).flush t = true ∧ i ∈ ((cfg2.win 2).blk t).view.set := by
  have hN : cfg2.N = 64 := N_2
  have hi0 : (i 0).val < 16 := (i 0).isLt
  have hi1 : (i 1).val < 1024 := (i 1).isLt
  have hi2 : (i 2).val < 4096 := (i 2).isLt
  obtain ⟨t, ht⟩ : ∃ t : Fin cfg2.N, t.val = (i 0).val * 4 + (i 2).val / 1024 := ⟨⟨_, by omega⟩, rfl⟩
  obtain ⟨-, -, -, -, -, -, -, -, o0, o1, o2⟩ := index_facts t
  refine ⟨t, flush2_2 t, ?_⟩
  rw [mem_blk]
  intro a
  match a with
  | ⟨0, _⟩ =>
    show win2_2.index t (0 : Fin 3) * 1 ≤ (i 0).val ∧ (i 0).val < win2_2.index t (0 : Fin 3) * 1 + 1
    omega
  | ⟨1, _⟩ =>
    show win2_2.index t (1 : Fin 3) * 1024 ≤ (i 1).val ∧ (i 1).val < win2_2.index t (1 : Fin 3) * 1024 + 1024
    omega
  | ⟨2, _⟩ =>
    show win2_2.index t (2 : Fin 3) * 1024 ≤ (i 2).val ∧ (i 2).val < win2_2.index t (2 : Fin 3) * 1024 + 1024
    omega

/-! ## The result array -/

/-- THE RESULT ARRAY after the region: the specification's correlation of the two operand arrays as the region
    finds them, the first operand the query side. -/
theorem corr_final (c : Dev nD) :
    (dat2 (F := Ideal) V c).arrAt 2 cfg2.N = Cert.Attn.corr (V c main_v1) (V c main_v0) :=
  (dat2 V c).arrAt_eq_of_cover 2 (Cert.Attn.corr (V c main_v1) (V c main_v0)) (fun t _ => flushed_eq V c t) cover

end Cert.KernelIdeal.CorrValue

end
-- ==== Proof.KernelValueChain.lean ====
/-
  The idealized kernel's result as the specification of its eight argument arrays.

  @main is three kernel regions in a row. The first leaves, in its result array, the self-attention of the key
  features (argument 0) under the six weight and bias arrays; the second the self-attention of the query features
  (argument 1) under the same six; the third the correlation of the second's result with the first's. Between the
  regions nothing else is written: a region replaces its own result array and leaves every other buffer — the
  arguments, the earlier regions' results — as it found it. So each region's operands, as that region finds them,
  are the launch contents of the arguments or an earlier region's result, and the last result is the correlation
  of the two attentions of the arguments: the specification's `result`.
-/
import proofs.«167884_j42846593745002_1_alg».proof.Proof.Gen.KernelIdeal.Frame
import proofs.«167884_j42846593745002_1_alg».proof.Proof.Spec
import proofs.«167884_j42846593745002_1_alg».proof.Proof.CorrValue

set_option maxRecDepth 16384

noncomputable section

namespace Cert.KernelIdeal.KernelValue

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arguments as the second region finds them

The first region reads arguments 0 and 2 … 7 through its input windows and never writes them back; argument 1 is no
array of it. So when the second region is entered every argument still holds its launch contents. -/

theorem entry1_arg1 (c : Dev nD) : V1 m ρ c main_arg1 = m ((c.tc : Thread nD τ).loc main_arg1) :=
  W1_of_ne m ρ c main_arg1 (by decide)
theorem entry1_arg2 (c : Dev nD) : V1 m ρ c main_arg2 = m ((c.tc : Thread nD τ).loc main_arg2) :=
  (W1_arr m ρ c 1).trans (((dat0 (V0 m ρ) c).arrAt_in 1 rfl _).trans (A_eq0 (V0 m ρ) c 1))
theorem entry1_arg3 (c : Dev nD) : V1 m ρ c main_arg3 = m ((c.tc : Thread nD τ).loc main_arg3) :=
  (W1_arr m ρ c 2).trans (((dat0 (V0 m ρ) c).arrAt_in 2 rfl _).trans (A_eq0 (V0 m ρ) c 2))
theorem entry1_arg4 (c : Dev nD) : V1 m ρ c main_arg4 = m ((c.tc : Thread nD τ).loc main_arg4) :=
  (W1_arr m ρ c 3).trans (((dat0 (V0 m ρ) c).arrAt_in 3 rfl _).trans (A_eq0 (V0 m ρ) c 3))
theorem entry1_arg5 (c : Dev nD) : V1 m ρ c main_arg5 = m ((c.tc : Thread nD τ).loc main_arg5) :=
  (W1_arr m ρ c 4).trans (((dat0 (V0 m ρ) c).arrAt_in 4 rfl _).trans (A_eq0 (V0 m ρ) c 4))
theorem entry1_arg6 (c : Dev nD) : V1 m ρ c main_arg6 = m ((c.tc : Thread nD τ).loc main_arg6) :=
  (W1_arr m ρ c 5).trans (((dat0 (V0 m ρ) c).arrAt_in 5 rfl _).trans (A_eq0 (V0 m ρ) c 5))
theorem entry1_arg7 (c : Dev nD) : V1 m ρ c main_arg7 = m ((c.tc : Thread nD τ).loc main_arg7) :=
  (W1_arr m ρ c 6).trans (((dat0 (V0 m ρ) c).arrAt_in 6 rfl _).trans (A_eq0 (V0 m ρ) c 6))

/-! ## The two attentions as the last region finds them -/

/-- The first region's result, untouched by the second: the attention of the key features. -/
theorem entry2_key
    (attn0 : ∀ (V : (c : Dev nD) → (b : Ref sig .tc) → Buf (Elt Ideal) ((c : Thread nD τ).loc b)) (c : Dev nD),
      (dat0 (F := Ideal) V c).arrAt 7 cfg0.N = Cert.Attn.attn (V c main_arg0) (V c main_arg2) (V c main_arg3) (V c main_arg4) (V c main_arg5) (V c main_arg6) (V c main_arg7))
    (c : Dev nD) :
    V2 m ρ c main_v0 = Cert.Attn.attn (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  calc V2 m ρ c main_v0
    _ = W1 m ρ c (Proc.devRef .tc main_v0) := W2_of_ne m ρ c main_v0 (by decide)
    _ = (dat0 (V0 m ρ) c).arrAt 7 cfg0.N := W1_arr m ρ c 7
    _ = Cert.Attn.attn (V0 m ρ c main_arg0) (V0 m ρ c main_arg2) (V0 m ρ c main_arg3) (V0 m ρ c main_arg4) (V0 m ρ c main_arg5) (V0 m ρ c main_arg6) (V0 m ρ c main_arg7) := attn0 (V0 m ρ) c
    _ = _ := rfl

/-- The second region's result: the attention of the query features. -/
theorem entry2_query
    (attn1 : ∀ (V : (c : Dev nD) → (b : Ref sig .tc) → Buf (Elt Ideal) ((c : Thread nD τ).loc b)) (c : Dev nD),
      (dat1 (F := Ideal) V c).arrAt 7 cfg1.N = Cert.Attn.attn (V c main_arg1) (V c main_arg2) (V c main_arg3) (V c main_arg4) (V c main_arg5) (V c main_arg6) (V c main_arg7))
    (c : Dev nD) :
    V2 m ρ c main_v1 = Cert.Attn.attn (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h : V2 m ρ c main_v1 = Cert.Attn.attn (V1 m ρ c main_arg1) (V1 m ρ c main_arg2) (V1 m ρ c main_arg3) (V1 m ρ c main_arg4) (V1 m ρ c main_arg5) (V1 m ρ c main_arg6) (V1 m ρ c main_arg7) :=
    (W2_arr m ρ c 7).trans (attn1 (V1 m ρ) c)
  rw [h, entry1_arg1, entry1_arg2, entry1_arg3, entry1_arg4, entry1_arg5, entry1_arg6, entry1_arg7]

/-! ## The result -/

/-- The chain through the three boundaries, given what each attention region leaves in its result array. -/
theorem result_eq_of
    (attn0 : ∀ (V : (c : Dev nD) → (b : Ref sig .tc) → Buf (Elt Ideal) ((c : Thread nD τ).loc b)) (c : Dev nD),
      (dat0 (F := Ideal) V c).arrAt 7 cfg0.N = Cert.Attn.attn (V c main_arg0) (V c main_arg2) (V c main_arg3) (V c main_arg4) (V c main_arg5) (V c main_arg6) (V c main_arg7))
    (attn1 : ∀ (V : (c : Dev nD) → (b : Ref sig .tc) → Buf (Elt Ideal) ((c : Thread nD τ).loc b)) (c : Dev nD),
      (dat1 (F := Ideal) V c).arrAt 7 cfg1.N = Cert.Attn.attn (V c main_arg1) (V c main_arg2) (V c main_arg3) (V c main_arg4) (V c main_arg5) (V c main_arg6) (V c main_arg7))
    (c : Dev nD) :
    W3 (F := Ideal) m ρ c (Proc.devRef .tc main_v2) = Cert.Attn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h : W3 (F := Ideal) m ρ c (Proc.devRef .tc main_v2) = Cert.Attn.corr (V2 m ρ c main_v1) (V2 m ρ c main_v0) :=
    (W3_arr m ρ c 2).trans (Cert.KernelIdeal.CorrValue.corr_final (V2 m ρ) c)
  rw [h, entry2_query m ρ attn1 c, entry2_key m ρ attn0 c]
  rfl

end Cert.KernelIdeal.KernelValue

end
-- ==== Proof.KernelRun.lean ====
/-
  The idealized kernel's run with its result named. @main is three kernel regions in a row and nothing else, so the
  TensorCore's buffers after the run are the launch contents with each region's arrays replaced, in turn, by what
  that region's write-backs leave: the fold `W0 → W1 → W2 → W3`. Every weakly fair execution terminates without a
  fault in a state whose unscoped buffers are exactly `W3`; read at the result buffer this names the result, and read
  at the eight arguments it gives them back unchanged.
-/
import proofs.«167884_j42846593745002_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents `W3` and the arguments as launched. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.KernelIdeal.RunValue

end
-- ==== Proof.AttnBlock.lean ====
/-
  What one grid point of a self-attention kernel leaves in its output block, as a function of the blocks it reads: the
  feature block of one batch entry (1 × 1024 × 1024) and the whole weight and bias arrays. For head `h`, row `n` and
  feature `d` it is the softmax-weighted sum of the value projections, each projection `x · Wᵀ + b` taken on the one
  batch entry the block holds (unit coordinate 0).
-/
import proofs.«167884_j42846593745002_1_alg».proof.KernelIdeal
import proofs.«167884_j42846593745002_1_alg».proof.Proof.Spec

noncomputable section

namespace Cert.KernelIdeal.AttnBlock

open Cert.KernelIdeal
open Idealize.ShloMosaic Idealize.ShloMosaic.ValueIdx

/-- One head's projection of the block's rows: `∑_c x[0,n,c] · W[h,d,c] + b[h,d]`. -/
def bproj (x : Vec Ideal S1x1024x1024 .f32) (W : Vec Ideal S4x64x1024 .f32) (b : Vec Ideal S4x64 .f32)
    (h : Fin 4) (n : Fin 1024) (d : Fin 64) : EReal :=
  (∑ c : Fin 1024, x (ix3 0 n c) * W (ix3 h d c)) + b (ix2 h d)

/-- The scaled score of row `n` against row `n'` in head `h`. -/
def bscore (x : Vec Ideal S1x1024x1024 .f32) (Wq : Vec Ideal S4x64x1024 .f32) (bq : Vec Ideal S4x64 .f32)
    (Wk : Vec Ideal S4x64x1024 .f32) (bk : Vec Ideal S4x64 .f32) (h : Fin 4) (n n' : Fin 1024) : EReal :=
  (∑ d : Fin 64, bproj x Wq bq h n d * bproj x Wk bk h n' d) * Cert.Attn.scaleW

/-- The head's result at row `n`, feature `d`. -/
def bhead (x : Vec Ideal S1x1024x1024 .f32) (Wq : Vec Ideal S4x64x1024 .f32) (bq : Vec Ideal S4x64 .f32)
    (Wk : Vec Ideal S4x64x1024 .f32) (bk : Vec Ideal S4x64 .f32) (Wv : Vec Ideal S4x64x1024 .f32) (bv : Vec Ideal S4x64 .f32)
    (h : Fin 4) (n : Fin 1024) (d : Fin 64) : EReal :=
  ∑ n' : Fin 1024, Cert.Attn.softmaxRow (fun k => bscore x Wq bq Wk bk h n k) n' * bproj x Wv bv h n' d

/-- The output block (1 × 4 × 1024 × 64) of one grid point. -/
def blockOut (x : Vec Ideal S1x1024x1024 .f32) (Wq : Vec Ideal S4x64x1024 .f32) (bq : Vec Ideal S4x64 .f32)
    (Wk : Vec Ideal S4x64x1024 .f32) (bk : Vec Ideal S4x64 .f32) (Wv : Vec Ideal S4x64x1024 .f32) (bv : Vec Ideal S4x64 .f32) :
    Vec Ideal S1x4x1024x64 .f32 := fun y => bhead x Wq bq Wk bk Wv bv (y 1) (y 2) (y 3)

end Cert.KernelIdeal.AttnBlock

end
-- ==== Proof.AttnArray0.lean ====
/-
  From blocks to the whole array, for the self-attention region over the key features.

  The region runs over the 16 batch entries. Point `t` reads block `t` of the feature array (one batch entry, all
  1024 rows and channels) and the whole weight and bias arrays, and writes block `t` of the result (one batch entry,
  all four heads). What a point leaves in its output block is the block-level attention of the blocks it read; a
  block's element sits in its array at block index × block size + its own coordinate, so that is the specification's
  `attn` of the whole arrays read at (t, head, row, feature). Every index of the result lies in the block of the
  point its batch coordinate names, so the array ends holding `attn` of the arguments everywhere.
-/
import proofs.«167884_j42846593745002_1_alg».proof.Proof.Gen.KernelIdeal.Frame
import Idealize.ShloMosaic.Lib.Pipeline.Value
import proofs.«167884_j42846593745002_1_alg».proof.Proof.AttnBlock
import proofs.«167884_j42846593745002_1_alg».proof.Proof.Spec

noncomputable section

namespace Cert.KernelIdeal.AttnArray0

open Cert.KernelIdeal Cert.KernelIdeal.Gen Idealize.ShloMosaic Idealize.ShloMosaic.TcCoe Idealize.SL.Sem Idealize.ShloMosaic.ValueIdx
open Idealize.ShloMosaic.Pipeline (Dat)

/-! ## The block-level attention of blocks read off whole arrays -/

/-- If the feature block is batch entry `bt` of the array `X` and the weight and bias blocks are the whole arrays, the
    block-level head result at (head, row, feature) is `attn` of the arrays at (bt, head, row, feature): the same
    sums, term by term. -/
theorem bhead_eq (X : FVec Ideal S16x1024x1024 .f32) (Wq : FVec Ideal S4x64x1024 .f32) (bq : FVec Ideal S4x64 .f32)
    (Wk : FVec Ideal S4x64x1024 .f32) (bk : FVec Ideal S4x64 .f32) (Wv : FVec Ideal S4x64x1024 .f32) (bv : FVec Ideal S4x64 .f32)
    (bt : Fin 16) (x : Vec Ideal S1x1024x1024 .f32) (wq : Vec Ideal S4x64x1024 .f32) (bq' : Vec Ideal S4x64 .f32)
    (wk : Vec Ideal S4x64x1024 .f32) (bk' : Vec Ideal S4x64 .f32) (wv : Vec Ideal S4x64x1024 .f32) (bv' : Vec Ideal S4x64 .f32)
    (hx : ∀ n ch : Fin 1024, x (ix3 0 n ch) = X (ix3 bt n ch))
    (hwq : wq = Wq) (hbq : bq' = bq) (hwk : wk = Wk) (hbk : bk' = bk) (hwv : wv = Wv) (hbv : bv' = bv)
    (h : Fin 4) (n : Fin 1024) (d : Fin 64) :
    AttnBlock.bhead x wq bq' wk bk' wv bv' h n d = Cert.Attn.attn X Wq bq Wk bk Wv bv (ix4 bt h n d) := by
  subst hwq hbq hwk hbk hwv hbv
  have hp : ∀ (W : Vec Ideal S4x64x1024 .f32) (b : Vec Ideal S4x64 .f32) (h : Fin 4) (n : Fin 1024) (d : Fin 64),
      AttnBlock.bproj x W b h n d = Cert.Attn.proj X W b bt h n d := fun W b h n d => by
    unfold AttnBlock.bproj Cert.Attn.proj
    simp only [hx]
  have hs : ∀ (h : Fin 4) (n n' : Fin 1024),
      AttnBlock.bscore x wq bq' wk bk' h n n' = Cert.Attn.score X wq bq' wk bk' bt h n n' := fun h n n' => by
    unfold AttnBlock.bscore Cert.Attn.score
    simp only [hp]
  unfold AttnBlock.bhead
  simp only [hs, hp]
  rfl

/-! ## The printed index maps, over the grid -/

/-- The feature window and the output window move with the point along the batch axis and stay at block 0 on the
    others; the weight and bias windows stay at block 0 on every axis. Decided over the 16 points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 4) = t.val ∧ win0_7.index t (1 : Fin 4) = 0 ∧ win0_7.index t (2 : Fin 4) = 0 ∧ win0_7.index t (3 : Fin 4) = 0 :=
  (by decide +kernel : ∀ t : Fin grid0.N, _)

/-- A point is below 16. -/
theorem lt16 (t : Fin cfg0.N) : t.val < 16 := Nat.lt_of_lt_of_eq t.isLt (show cfg0.N = 16 from N_0)

/-- An index of the result array is in point `t`'s block iff each coordinate is in the block's range on its axis. -/
theorem mem_blk (t : Fin cfg0.N) (i : S16x4x1024x64.Idx) :
    i ∈ ((cfg0.win 7).blk t).view.set ↔ ∀ a : Fin 4, win0_7.index t a * S1x4x1024x64.size a ≤ (i a).val ∧ (i a).val < win0_7.index t a * S1x4x1024x64.size a + S1x4x1024x64.size a := by
  show i ∈ ((View.whole main_v0).slice (win0_7.rect t)).set ↔ _
  rw [View.set_slice_whole, Rect.mem_set_unit]
  exact Iff.rfl

variable (V : (c : Dev nD) → (b : Ref sig .tc) → Buf (Elt Ideal) ((c : Thread nD τ).loc b))

/-! ## The input blocks, read off their arrays -/

/-- The feature block of point `t` is batch entry `t` of the feature array. -/
theorem feat_block (c : Dev nD) (t : Fin cfg0.N) (n ch : Fin 1024) :
    (iblk0 V c 0 t : Vec Ideal S1x1024x1024 .f32) (ix3 0 n ch)
      = (V c main_arg0 : FVec Ideal S16x1024x1024 .f32) (ix3 ⟨t.val, lt16 t⟩ n ch) := by
  obtain ⟨f0, f1, f2, -, -, -, -, -, -, -, -, -, -, -, -, -, -, -, -, -, -, -⟩ := idx_facts t
  show V c main_arg0 (((cfg0.win 0).blk t).view.emb (ix3 0 n ch)) = _
  refine congrArg (V c main_arg0) (funext fun a => Fin.ext ?_)
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 1024 + 1 * ch.val = ch.val; omega

/-- Window 1's block is the whole array, at every point. -/
theorem whole_1 (c : Dev nD) (t : Fin cfg0.N) : (iblk0 V c 1 t : Vec Ideal S4x64x1024 .f32) = V c main_arg2 := by
  obtain ⟨-, -, -, a0, a1, a2, -, -, -, -, -, -, -, -, -, -, -, -, -, -, -, -⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 3) * 4 + 1 * (y 0).val = (y 0).val; omega
  | ⟨1, _⟩ => show win0_1.index t (1 : Fin 3) * 64 + 1 * (y 1).val = (y 1).val; omega
  | ⟨2, _⟩ => show win0_1.index t (2 : Fin 3) * 1024 + 1 * (y 2).val = (y 2).val; omega

/-- Window 2's block is the whole array, at every point. -/
theorem whole_2 (c : Dev nD) (t : Fin cfg0.N) : (iblk0 V c 2 t : Vec Ideal S4x64 .f32) = V c main_arg3 := by
  obtain ⟨-, -, -, -, -, -, b0, b1, -, -, -, -, -, -, -, -, -, -, -, -, -, -⟩ := idx_facts t
  funext y
  show V c main_arg3 (((cfg0.win 2).blk t).view.emb y) = V c main_arg3 y
  refine congrArg (V c main_arg3) (funext fun a => Fin.ext ?_)
  match a with
  | ⟨0, _⟩ => show win0_2.index t (0 : Fin 2) * 4 + 1 * (y 0).val = (y 0).val; omega
  | ⟨1, _⟩ => show win0_2.index t (1 : Fin 2) * 64 + 1 * (y 1).val = (y 1).val; omega

/-- Window 3's block is the whole array, at every point. -/
theorem whole_3 (c : Dev nD) (t : Fin cfg0.N) : (iblk0 V c 3 t : Vec Ideal S4x64x1024 .f32) = V c main_arg4 := by
  obtain ⟨-, -, -, -, -, -, -, -, c0, c1, c2, -, -, -, -, -, -, -, -, -, -, -⟩ := idx_facts t
  funext y
  show V c main_arg4 (((cfg0.win 3).blk t).view.emb y) = V c main_arg4 y
  refine congrArg (V c main_arg4) (funext fun a => Fin.ext ?_)
  match a with
  | ⟨0, _⟩ => show win0_3.index t (0 : Fin 3) * 4 + 1 * (y 0).val = (y 0).val; omega
  | ⟨1, _⟩ => show win0_3.index t (1 : Fin 3) * 64 + 1 * (y 1).val = (y 1).val; omega
  | ⟨2, _⟩ => show win0_3.index t (2 : Fin 3) * 1024 + 1 * (y 2).val = (y 2).val; omega

/-- Window 4's block is the whole array, at every point. -/
theorem whole_4 (c : Dev nD) (t : Fin cfg0.N) : (iblk0 V c 4 t : Vec Ideal S4x64 .f32) = V c main_arg5 := by
  obtain ⟨-, -, -, -, -, -, -, -, -, -, -, d0, d1, -, -, -, -, -, -, -, -, -⟩ := idx_facts t
  funext y
  show V c main_arg5 (((cfg0.win 4).blk t).view.emb y) = V c main_arg5 y
  refine congrArg (V c main_arg5) (funext fun a => Fin.ext ?_)
  match a with
  | ⟨0, _⟩ => show win0_4.index t (0 : Fin 2) * 4 + 1 * (y 0).val = (y 0).val; omega
  | ⟨1, _⟩ => show win0_4.index t (1 : Fin 2) * 64 + 1 * (y 1).val = (y 1).val; omega

/-- Window 5's block is the whole array, at every point. -/
theorem whole_5 (c : Dev nD) (t : Fin cfg0.N) : (iblk0 V c 5 t : Vec Ideal S4x64x1024 .f32) = V c main_arg6 := by
  obtain ⟨-, -, -, -, -, -, -, -, -, -, -, -, -, e0, e1, e2, -, -, -, -, -, -⟩ := idx_facts t
  funext y
  show V c main_arg6 (((cfg0.win 5).blk t).view.emb y) = V c main_arg6 y
  refine congrArg (V c main_arg6) (funext fun a => Fin.ext ?_)
  match a with
  | ⟨0, _⟩ => show win0_5.index t (0 : Fin 3) * 4 + 1 * (y 0).val = (y 0).val; omega
  | ⟨1, _⟩ => show win0_5.index t (1 : Fin 3) * 64 + 1 * (y 1).val = (y 1).val; omega
  | ⟨2, _⟩ => show win0_5.index t (2 : Fin 3) * 1024 + 1 * (y 2).val = (y 2).val; omega

/-- Window 6's block is the whole array, at every point. -/
theorem whole_6 (c : Dev nD) (t : Fin cfg0.N) : (iblk0 V c 6 t : Vec Ideal S4x64 .f32) = V c main_arg7 := by
  obtain ⟨-, -, -, -, -, -, -, -, -, -, -, -, -, -, -, -, g0, g1, -, -, -, -⟩ := idx_facts t
  funext y
  show V c main_arg7 (((cfg0.win 6).blk t).view.emb y) = V c main_arg7 y
  refine congrArg (V c main_arg7) (funext fun a => Fin.ext ?_)
  match a with
  | ⟨0, _⟩ => show win0_6.index t (0 : Fin 2) * 4 + 1 * (y 0).val = (y 0).val; omega
  | ⟨1, _⟩ => show win0_6.index t (1 : Fin 2) * 64 + 1 * (y 1).val = (y 1).val; omega

/-! ## What a point writes back -/

variable (hbody : ∀ (c : Dev nD) (t : Fin cfg0.N), outsAt0 (F := Ideal) V c t = Cert.KernelIdeal.AttnBlock.blockOut (iblk0 V c 0 t) (iblk0 V c 1 t) (iblk0 V c 2 t) (iblk0 V c 3 t) (iblk0 V c 4 t) (iblk0 V c 5 t) (iblk0 V c 6 t))
include hbody

/-- Point `t` writes back block `t` of `attn` of the argument arrays as the region finds them, given that the
    point leaves the block-level attention of the blocks it read in its output block (`hbody`). -/
theorem flushed_eq (c : Dev nD) (t : Fin cfg0.N) :
    (dat0 (F := Ideal) V c).flushed 7 t
      = ((cfg0.win 7).blk t).view.read (Elt Ideal)
          (Cert.Attn.attn (V c main_arg0) (V c main_arg2) (V c main_arg3) (V c main_arg4) (V c main_arg5) (V c main_arg6) (V c main_arg7)) := by
  show (cfg0.win 7).cut (grid0.coords t) ((dat0 (F := Ideal) V c).after 7 t) = _
  rw [after0_7, hbody c t]
  obtain ⟨-, -, -, -, -, -, -, -, -, -, -, -, -, -, -, -, -, -, o0, o1, o2, o3⟩ := idx_facts t
  funext y
  show AttnBlock.bhead (iblk0 V c 0 t) (iblk0 V c 1 t) (iblk0 V c 2 t) (iblk0 V c 3 t) (iblk0 V c 4 t) (iblk0 V c 5 t) (iblk0 V c 6 t) (y 1) (y 2) (y 3)
      = Cert.Attn.attn (V c main_arg0) (V c main_arg2) (V c main_arg3) (V c main_arg4) (V c main_arg5) (V c main_arg6) (V c main_arg7)
          (((cfg0.win 7).blk t).view.emb y)
  have hemb : ((cfg0.win 7).blk t).view.emb y = ix4 (⟨t.val, lt16 t⟩ : Fin 16) (y 1) (y 2) (y 3) := funext fun a => Fin.ext (by
    have hy0 : (y 0).val < 1 := (y 0).isLt
    match a with
    | ⟨0, _⟩ => show win0_7.index t (0 : Fin 4) * 1 + 1 * (y 0).val = t.val; omega
    | ⟨1, _⟩ => show win0_7.index t (1 : Fin 4) * 4 + 1 * (y 1).val = (y 1).val; omega
    | ⟨2, _⟩ => show win0_7.index t (2 : Fin 4) * 1024 + 1 * (y 2).val = (y 2).val; omega
    | ⟨3, _⟩ => show win0_7.index t (3 : Fin 4) * 64 + 1 * (y 3).val = (y 3).val; omega)
  rw [hemb]
  exact bhead_eq (V c main_arg0) (V c main_arg2) (V c main_arg3) (V c main_arg4) (V c main_arg5) (V c main_arg6) (V c main_arg7)
    ⟨t.val, lt16 t⟩ (iblk0 V c 0 t) (iblk0 V c 1 t) (iblk0 V c 2 t) (iblk0 V c 3 t) (iblk0 V c 4 t) (iblk0 V c 5 t) (iblk0 V c 6 t)
    (feat_block V c t) (whole_1 V c t) (whole_2 V c t) (whole_3 V c t) (whole_4 V c t) (whole_5 V c t) (whole_6 V c t) (y 1) (y 2) (y 3)

/-! ## The blocks cover the array -/

/-- The result array after the region: `attn` of the argument arrays as the region finds them, given what one
    grid point leaves in its output block (`hbody`). -/
theorem attn_final (c : Dev nD) : (dat0 (F := Ideal) V c).arrAt 7 cfg0.N
    = Cert.Attn.attn (V c main_arg0) (V c main_arg2) (V c main_arg3) (V c main_arg4) (V c main_arg5) (V c main_arg6) (V c main_arg7) :=
  (dat0 (F := Ideal) V c).arrAt_eq_of_cover 7 _ (fun t _ => flushed_eq V hbody c t) fun i => by
    have hi0 : (i 0).val < 16 := (i 0).isLt
    have hi1 : (i 1).val < 4 := (i 1).isLt
    have hi2 : (i 2).val < 1024 := (i 2).isLt
    have hi3 : (i 3).val < 64 := (i 3).isLt
    refine ⟨⟨(i 0).val, by rw [show cfg0.N = 16 from N_0]; exact hi0⟩, flush0_7 _, ?_⟩
    obtain ⟨-, -, -, -, -, -, -, -, -, -, -, -, -, -, -, -, -, -, o0, o1, o2, o3⟩ := idx_facts (⟨(i 0).val, by rw [show cfg0.N = 16 from N_0]; exact hi0⟩ : Fin cfg0.N)
    rw [mem_blk]
    intro a
    match a with
    | ⟨0, _⟩ => show win0_7.index _ (0 : Fin 4) * 1 ≤ (i 0).val ∧ (i 0).val < win0_7.index _ (0 : Fin 4) * 1 + 1; rw [o0]; show (i 0).val * 1 ≤ (i 0).val ∧ (i 0).val < (i 0).val * 1 + 1; omega
    | ⟨1, _⟩ => show win0_7.index _ (1 : Fin 4) * 4 ≤ (i 1).val ∧ (i 1).val < win0_7.index _ (1 : Fin 4) * 4 + 4; rw [o1]; omega
    | ⟨2, _⟩ => show win0_7.index _ (2 : Fin 4) * 1024 ≤ (i 2).val ∧ (i 2).val < win0_7.index _ (2 : Fin 4) * 1024 + 1024; rw [o2]; omega
    | ⟨3, _⟩ => show win0_7.index _ (3 : Fin 4) * 64 ≤ (i 3).val ∧ (i 3).val < win0_7.index _ (3 : Fin 4) * 64 + 64; rw [o3]; omega

end Cert.KernelIdeal.AttnArray0

end
-- ==== Proof.AttnArray1.lean ====
/-
  From blocks to the whole array, for the self-attention region over the query features.

  The region runs over the 16 batch entries. Point `t` reads block `t` of the feature array (one batch entry, all
  1024 rows and channels) and the whole weight and bias arrays, and writes block `t` of the result (one batch entry,
  all four heads). What a point leaves in its output block is the block-level attention of the blocks it read; a
  block's element sits in its array at block index × block size + its own coordinate, so that is the specification's
  `attn` of the whole arrays read at (t, head, row, feature). Every index of the result lies in the block of the
  point its batch coordinate names, so the array ends holding `attn` of the arguments everywhere.
-/
import proofs.«167884_j42846593745002_1_alg».proof.Proof.Gen.KernelIdeal.Frame
import Idealize.ShloMosaic.Lib.Pipeline.Value
import proofs.«167884_j42846593745002_1_alg».proof.Proof.AttnBlock
import proofs.«167884_j42846593745002_1_alg».proof.Proof.Spec

noncomputable section

namespace Cert.KernelIdeal.AttnArray1

open Cert.KernelIdeal Cert.KernelIdeal.Gen Idealize.ShloMosaic Idealize.ShloMosaic.TcCoe Idealize.SL.Sem Idealize.ShloMosaic.ValueIdx
open Idealize.ShloMosaic.Pipeline (Dat)

/-! ## The block-level attention of blocks read off whole arrays -/

/-- If the feature block is batch entry `bt` of the array `X` and the weight and bias blocks are the whole arrays, the
    block-level head result at (head, row, feature) is `attn` of the arrays at (bt, head, row, feature): the same
    sums, term by term. -/
theorem bhead_eq (X : FVec Ideal S16x1024x1024 .f32) (Wq : FVec Ideal S4x64x1024 .f32) (bq : FVec Ideal S4x64 .f32)
    (Wk : FVec Ideal S4x64x1024 .f32) (bk : FVec Ideal S4x64 .f32) (Wv : FVec Ideal S4x64x1024 .f32) (bv : FVec Ideal S4x64 .f32)
    (bt : Fin 16) (x : Vec Ideal S1x1024x1024 .f32) (wq : Vec Ideal S4x64x1024 .f32) (bq' : Vec Ideal S4x64 .f32)
    (wk : Vec Ideal S4x64x1024 .f32) (bk' : Vec Ideal S4x64 .f32) (wv : Vec Ideal S4x64x1024 .f32) (bv' : Vec Ideal S4x64 .f32)
    (hx : ∀ n ch : Fin 1024, x (ix3 0 n ch) = X (ix3 bt n ch))
    (hwq : wq = Wq) (hbq : bq' = bq) (hwk : wk = Wk) (hbk : bk' = bk) (hwv : wv = Wv) (hbv : bv' = bv)
    (h : Fin 4) (n : Fin 1024) (d : Fin 64) :
    AttnBlock.bhead x wq bq' wk bk' wv bv' h n d = Cert.Attn.attn X Wq bq Wk bk Wv bv (ix4 bt h n d) := by
  subst hwq hbq hwk hbk hwv hbv
  have hp : ∀ (W : Vec Ideal S4x64x1024 .f32) (b : Vec Ideal S4x64 .f32) (h : Fin 4) (n : Fin 1024) (d : Fin 64),
      AttnBlock.bproj x W b h n d = Cert.Attn.proj X W b bt h n d := fun W b h n d => by
    unfold AttnBlock.bproj Cert.Attn.proj
    simp only [hx]
  have hs : ∀ (h : Fin 4) (n n' : Fin 1024),
      AttnBlock.bscore x wq bq' wk bk' h n n' = Cert.Attn.score X wq bq' wk bk' bt h n n' := fun h n n' => by
    unfold AttnBlock.bscore Cert.Attn.score
    simp only [hp]
  unfold AttnBlock.bhead
  simp only [hs, hp]
  rfl

/-! ## The printed index maps, over the grid -/

/-- The feature window and the output window move with the point along the batch axis and stay at block 0 on the
    others; the weight and bias windows stay at block 0 on every axis. Decided over the 16 points. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 3) = 0 ∧ win1_5.index t (1 : Fin 3) = 0 ∧ win1_5.index t (2 : Fin 3) = 0
    ∧ win1_6.index t (0 : Fin 2) = 0 ∧ win1_6.index t (1 : Fin 2) = 0
    ∧ win1_7.index t (0 : Fin 4) = t.val ∧ win1_7.index t (1 : Fin 4) = 0 ∧ win1_7.index t (2 : Fin 4) = 0 ∧ win1_7.index t (3 : Fin 4) = 0 :=
  (by decide +kernel : ∀ t : Fin grid1.N, _)

/-- A point is below 16. -/
theorem lt16 (t : Fin cfg1.N) : t.val < 16 := Nat.lt_of_lt_of_eq t.isLt (show cfg1.N = 16 from N_1)

/-- An index of the result array is in point `t`'s block iff each coordinate is in the block's range on its axis. -/
theorem mem_blk (t : Fin cfg1.N) (i : S16x4x1024x64.Idx) :
    i ∈ ((cfg1.win 7).blk t).view.set ↔ ∀ a : Fin 4, win1_7.index t a * S1x4x1024x64.size a ≤ (i a).val ∧ (i a).val < win1_7.index t a * S1x4x1024x64.size a + S1x4x1024x64.size a := by
  show i ∈ ((View.whole main_v1).slice (win1_7.rect t)).set ↔ _
  rw [View.set_slice_whole, Rect.mem_set_unit]
  exact Iff.rfl

variable (V : (c : Dev nD) → (b : Ref sig .tc) → Buf (Elt Ideal) ((c : Thread nD τ).loc b))

/-! ## The input blocks, read off their arrays -/

/-- The feature block of point `t` is batch entry `t` of the feature array. -/
theorem feat_block (c : Dev nD) (t : Fin cfg1.N) (n ch : Fin 1024) :
    (iblk1 V c 0 t : Vec Ideal S1x1024x1024 .f32) (ix3 0 n ch)
      = (V c main_arg1 : FVec Ideal S16x1024x1024 .f32) (ix3 ⟨t.val, lt16 t⟩ n ch) := by
  obtain ⟨f0, f1, f2, -, -, -, -, -, -, -, -, -, -, -, -, -, -, -, -, -, -, -⟩ := idx_facts t
  show V c main_arg1 (((cfg1.win 0).blk t).view.emb (ix3 0 n ch)) = _
  refine congrArg (V c main_arg1) (funext fun a => Fin.ext ?_)
  match a with
  | ⟨0, _⟩ => show win1_0.index t (0 : Fin 3) * 1 + 1 * 0 = t.val; omega
  | ⟨1, _⟩ => show win1_0.index t (1 : Fin 3) * 1024 + 1 * n.val = n.val; omega
  | ⟨2, _⟩ => show win1_0.index t (2 : Fin 3) * 1024 + 1 * ch.val = ch.val; omega

/-- Window 1's block is the whole array, at every point. -/
theorem whole_1 (c : Dev nD) (t : Fin cfg1.N) : (iblk1 V c 1 t : Vec Ideal S4x64x1024 .f32) = V c main_arg2 := by
  obtain ⟨-, -, -, a0, a1, a2, -, -, -, -, -, -, -, -, -, -, -, -, -, -, -, -⟩ := idx_facts t
  funext y
  show V c main_arg2 (((cfg1.win 1).blk t).view.emb y) = V c main_arg2 y
  refine congrArg (V c main_arg2) (funext fun a => Fin.ext ?_)
  match a with
  | ⟨0, _⟩ => show win1_1.index t (0 : Fin 3) * 4 + 1 * (y 0).val = (y 0).val; omega
  | ⟨1, _⟩ => show win1_1.index t (1 : Fin 3) * 64 + 1 * (y 1).val = (y 1).val; omega
  | ⟨2, _⟩ => show win1_1.index t (2 : Fin 3) * 1024 + 1 * (y 2).val = (y 2).val; omega

/-- Window 2's block is the whole array, at every point. -/
theorem whole_2 (c : Dev nD) (t : Fin cfg1.N) : (iblk1 V c 2 t : Vec Ideal S4x64 .f32) = V c main_arg3 := by
  obtain ⟨-, -, -, -, -, -, b0, b1, -, -, -, -, -, -, -, -, -, -, -, -, -, -⟩ := idx_facts t
  funext y
  show V c main_arg3 (((cfg1.win 2).blk t).view.emb y) = V c main_arg3 y
  refine congrArg (V c main_arg3) (funext fun a => Fin.ext ?_)
  match a with
  | ⟨0, _⟩ => show win1_2.index t (0 : Fin 2) * 4 + 1 * (y 0).val = (y 0).val; omega
  | ⟨1, _⟩ => show win1_2.index t (1 : Fin 2) * 64 + 1 * (y 1).val = (y 1).val; omega

/-- Window 3's block is the whole array, at every point. -/
theorem whole_3 (c : Dev nD) (t : Fin cfg1.N) : (iblk1 V c 3 t : Vec Ideal S4x64x1024 .f32) = V c main_arg4 := by
  obtain ⟨-, -, -, -, -, -, -, -, c0, c1, c2, -, -, -, -, -, -, -, -, -, -, -⟩ := idx_facts t
  funext y
  show V c main_arg4 (((cfg1.win 3).blk t).view.emb y) = V c main_arg4 y
  refine congrArg (V c main_arg4) (funext fun a => Fin.ext ?_)
  match a with
  | ⟨0, _⟩ => show win1_3.index t (0 : Fin 3) * 4 + 1 * (y 0).val = (y 0).val; omega
  | ⟨1, _⟩ => show win1_3.index t (1 : Fin 3) * 64 + 1 * (y 1).val = (y 1).val; omega
  | ⟨2, _⟩ => show win1_3.index t (2 : Fin 3) * 1024 + 1 * (y 2).val = (y 2).val; omega

/-- Window 4's block is the whole array, at every point. -/
theorem whole_4 (c : Dev nD) (t : Fin cfg1.N) : (iblk1 V c 4 t : Vec Ideal S4x64 .f32) = V c main_arg5 := by
  obtain ⟨-, -, -, -, -, -, -, -, -, -, -, d0, d1, -, -, -, -, -, -, -, -, -⟩ := idx_facts t
  funext y
  show V c main_arg5 (((cfg1.win 4).blk t).view.emb y) = V c main_arg5 y
  refine congrArg (V c main_arg5) (funext fun a => Fin.ext ?_)
  match a with
  | ⟨0, _⟩ => show win1_4.index t (0 : Fin 2) * 4 + 1 * (y 0).val = (y 0).val; omega
  | ⟨1, _⟩ => show win1_4.index t (1 : Fin 2) * 64 + 1 * (y 1).val = (y 1).val; omega

/-- Window 5's block is the whole array, at every point. -/
theorem whole_5 (c : Dev nD) (t : Fin cfg1.N) : (iblk1 V c 5 t : Vec Ideal S4x64x1024 .f32) = V c main_arg6 := by
  obtain ⟨-, -, -, -, -, -, -, -, -, -, -, -, -, e0, e1, e2, -, -, -, -, -, -⟩ := idx_facts t
  funext y
  show V c main_arg6 (((cfg1.win 5).blk t).view.emb y) = V c main_arg6 y
  refine congrArg (V c main_arg6) (funext fun a => Fin.ext ?_)
  match a with
  | ⟨0, _⟩ => show win1_5.index t (0 : Fin 3) * 4 + 1 * (y 0).val = (y 0).val; omega
  | ⟨1, _⟩ => show win1_5.index t (1 : Fin 3) * 64 + 1 * (y 1).val = (y 1).val; omega
  | ⟨2, _⟩ => show win1_5.index t (2 : Fin 3) * 1024 + 1 * (y 2).val = (y 2).val; omega

/-- Window 6's block is the whole array, at every point. -/
theorem whole_6 (c : Dev nD) (t : Fin cfg1.N) : (iblk1 V c 6 t : Vec Ideal S4x64 .f32) = V c main_arg7 := by
  obtain ⟨-, -, -, -, -, -, -, -, -, -, -, -, -, -, -, -, g0, g1, -, -, -, -⟩ := idx_facts t
  funext y
  show V c main_arg7 (((cfg1.win 6).blk t).view.emb y) = V c main_arg7 y
  refine congrArg (V c main_arg7) (funext fun a => Fin.ext ?_)
  match a with
  | ⟨0, _⟩ => show win1_6.index t (0 : Fin 2) * 4 + 1 * (y 0).val = (y 0).val; omega
  | ⟨1, _⟩ => show win1_6.index t (1 : Fin 2) * 64 + 1 * (y 1).val = (y 1).val; omega

/-! ## What a point writes back -/

variable (hbody : ∀ (c : Dev nD) (t : Fin cfg1.N), outsAt1 (F := Ideal) V c t = Cert.KernelIdeal.AttnBlock.blockOut (iblk1 V c 0 t) (iblk1 V c 1 t) (iblk1 V c 2 t) (iblk1 V c 3 t) (iblk1 V c 4 t) (iblk1 V c 5 t) (iblk1 V c 6 t))
include hbody

/-- Point `t` writes back block `t` of `attn` of the argument arrays as the region finds them, given that the
    point leaves the block-level attention of the blocks it read in its output block (`hbody`). -/
theorem flushed_eq (c : Dev nD) (t : Fin cfg1.N) :
    (dat1 (F := Ideal) V c).flushed 7 t
      = ((cfg1.win 7).blk t).view.read (Elt Ideal)
          (Cert.Attn.attn (V c main_arg1) (V c main_arg2) (V c main_arg3) (V c main_arg4) (V c main_arg5) (V c main_arg6) (V c main_arg7)) := by
  show (cfg1.win 7).cut (grid1.coords t) ((dat1 (F := Ideal) V c).after 7 t) = _
  rw [after1_7, hbody c t]
  obtain ⟨-, -, -, -, -, -, -, -, -, -, -, -, -, -, -, -, -, -, o0, o1, o2, o3⟩ := idx_facts t
  funext y
  show AttnBlock.bhead (iblk1 V c 0 t) (iblk1 V c 1 t) (iblk1 V c 2 t) (iblk1 V c 3 t) (iblk1 V c 4 t) (iblk1 V c 5 t) (iblk1 V c 6 t) (y 1) (y 2) (y 3)
      = Cert.Attn.attn (V c main_arg1) (V c main_arg2) (V c main_arg3) (V c main_arg4) (V c main_arg5) (V c main_arg6) (V c main_arg7)
          (((cfg1.win 7).blk t).view.emb y)
  have hemb : ((cfg1.win 7).blk t).view.emb y = ix4 (⟨t.val, lt16 t⟩ : Fin 16) (y 1) (y 2) (y 3) := funext fun a => Fin.ext (by
    have hy0 : (y 0).val < 1 := (y 0).isLt
    match a with
    | ⟨0, _⟩ => show win1_7.index t (0 : Fin 4) * 1 + 1 * (y 0).val = t.val; omega
    | ⟨1, _⟩ => show win1_7.index t (1 : Fin 4) * 4 + 1 * (y 1).val = (y 1).val; omega
    | ⟨2, _⟩ => show win1_7.index t (2 : Fin 4) * 1024 + 1 * (y 2).val = (y 2).val; omega
    | ⟨3, _⟩ => show win1_7.index t (3 : Fin 4) * 64 + 1 * (y 3).val = (y 3).val; omega)
  rw [hemb]
  exact bhead_eq (V c main_arg1) (V c main_arg2) (V c main_arg3) (V c main_arg4) (V c main_arg5) (V c main_arg6) (V c main_arg7)
    ⟨t.val, lt16 t⟩ (iblk1 V c 0 t) (iblk1 V c 1 t) (iblk1 V c 2 t) (iblk1 V c 3 t) (iblk1 V c 4 t) (iblk1 V c 5 t) (iblk1 V c 6 t)
    (feat_block V c t) (whole_1 V c t) (whole_2 V c t) (whole_3 V c t) (whole_4 V c t) (whole_5 V c t) (whole_6 V c t) (y 1) (y 2) (y 3)

/-! ## The blocks cover the array -/

/-- The result array after the region: `attn` of the argument arrays as the region finds them, given what one
    grid point leaves in its output block (`hbody`). -/
theorem attn_final (c : Dev nD) : (dat1 (F := Ideal) V c).arrAt 7 cfg1.N
    = Cert.Attn.attn (V c main_arg1) (V c main_arg2) (V c main_arg3) (V c main_arg4) (V c main_arg5) (V c main_arg6) (V c main_arg7) :=
  (dat1 (F := Ideal) V c).arrAt_eq_of_cover 7 _ (fun t _ => flushed_eq V hbody c t) fun i => by
    have hi0 : (i 0).val < 16 := (i 0).isLt
    have hi1 : (i 1).val < 4 := (i 1).isLt
    have hi2 : (i 2).val < 1024 := (i 2).isLt
    have hi3 : (i 3).val < 64 := (i 3).isLt
    refine ⟨⟨(i 0).val, by rw [show cfg1.N = 16 from N_1]; exact hi0⟩, flush1_7 _, ?_⟩
    obtain ⟨-, -, -, -, -, -, -, -, -, -, -, -, -, -, -, -, -, -, o0, o1, o2, o3⟩ := idx_facts (⟨(i 0).val, by rw [show cfg1.N = 16 from N_1]; exact hi0⟩ : Fin cfg1.N)
    rw [mem_blk]
    intro a
    match a with
    | ⟨0, _⟩ => show win1_7.index _ (0 : Fin 4) * 1 ≤ (i 0).val ∧ (i 0).val < win1_7.index _ (0 : Fin 4) * 1 + 1; rw [o0]; show (i 0).val * 1 ≤ (i 0).val ∧ (i 0).val < (i 0).val * 1 + 1; omega
    | ⟨1, _⟩ => show win1_7.index _ (1 : Fin 4) * 4 ≤ (i 1).val ∧ (i 1).val < win1_7.index _ (1 : Fin 4) * 4 + 4; rw [o1]; omega
    | ⟨2, _⟩ => show win1_7.index _ (2 : Fin 4) * 1024 ≤ (i 2).val ∧ (i 2).val < win1_7.index _ (2 : Fin 4) * 1024 + 1024; rw [o2]; omega
    | ⟨3, _⟩ => show win1_7.index _ (3 : Fin 4) * 64 ≤ (i 3).val ∧ (i 3).val < win1_7.index _ (3 : Fin 4) * 64 + 64; rw [o3]; omega

end Cert.KernelIdeal.AttnArray1

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.AttnPayload.lean ====
/-
  The arithmetic of one head of the self-attention kernel, read index by index on the extended reals.

  One trip of the kernel's loop over heads takes the feature block `x` (1024 rows × 1024 channels), one head's three
  weight slabs (64 × 1024) and bias rows (64), and computes: the projections `x · Wᵀ + b` (matrix products into a zero
  accumulator, so plain sums over the channel), the scores `(q · kᵀ) · 1/8`, each row's maximum (folded from `-∞`),
  the exponentials of the scores less that maximum, their row sums, the quotients, and the product of the weights with
  the value projection. A change of float format is the identity here, a transpose swaps the two coordinates, and the
  unit axes that shape casts add or drop carry the coordinate 0.
-/
import proofs.«167884_j42846593745002_1_alg».proof.Proof.Gen.KernelIdeal.Skeleton
import proofs.«167884_j42846593745002_1_alg».proof.Proof.Spec
import proofs.«167884_j42846593745002_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.AttnPayload

open Cert.KernelIdeal Cert.KernelIdeal.Gen
open Idealize.ShloMosaic Idealize.ShloMosaic.ValueIdx

/-! ## The two matrix products as sums over the contracted coordinate -/

theorem dot_S1024x1024_S1024x64_S1024x64_1_0_0_1_n_n_lhs0 (i : S1024x64.Idx) (q : dot_S1024x1024_S1024x64_S1024x64_1_0_0_1_n_n.contr.Idx) : (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem dot_S1024x1024_S1024x64_S1024x64_1_0_0_1_n_n_lhs1 (i : S1024x64.Idx) (q : dot_S1024x1024_S1024x64_S1024x64_1_0_0_1_n_n.contr.Idx) : (dot_S1024x1024_S1024x64_S1024x64_1_0_0_1_n_n.lhsIdx i q 1).val = (q ⟨0, by decide⟩).val :=
  dot_S1024x1024_S1024x64_S1024x64_1_0_0_1_n_n.lhsIdx_val_of_single rfl i q
theorem dot_S1024x1024_S1024x64_S1024x64_1_0_0_1_n_n_rhs0 (i : S1024x64.Idx) (q : dot_S1024x1024_S1024x64_S1024x64_1_0_0_1_n_n.contr.Idx) : (dot_S1024x1024_S1024x64_S1024x64_1_0_0_1_n_n.rhsIdx i q 0).val = (q ⟨0, by decide⟩).val :=
  dot_S1024x1024_S1024x64_S1024x64_1_0_0_1_n_n.rhsIdx_val_of_single rfl i q
theorem dot_S1024x1024_S1024x64_S1024x64_1_0_0_1_n_n_rhs1 (i : S1024x64.Idx) (q : dot_S1024x1024_S1024x64_S1024x64_1_0_0_1_n_n.contr.Idx) : (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- A 1024 × 1024 matrix times a 1024 × 64 matrix into the zero accumulator: entry `(n, d)` is `∑_c l[n,c] · r[c,d]`. -/
theorem matmul_wide_apply {φ₁ φ₂ : FTy} (l : FVec Ideal S1024x1024 φ₁) (r : FVec Ideal S1024x64 φ₂) (n : Fin 1024) (d : Fin 64) :
    matmul dot_S1024x1024_S1024x64_S1024x64_1_0_0_1_n_n none l r (constant S1024x64 .f32 0x00000000#32) (ix2 n d)
      = ∑ c : Fin 1024, l (ix2 n c) * r (ix2 c d) := by
  refine (Ideal.matmul_constant_zero_apply dot_S1024x1024_S1024x64_S1024x64_1_0_0_1_n_n none l r (ix2 n d)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 n d) ((contrEquiv1 dot_S1024x1024_S1024x64_S1024x64_1_0_0_1_n_n 1024 rfl rfl).symm k) = ix2 n k :=
    funext fun x => Fin.ext (by
      match x with
      | ⟨0, _⟩ => exact dot_S1024x1024_S1024x64_S1024x64_1_0_0_1_n_n_lhs0 _ _
      | ⟨1, _⟩ => exact (dot_S1024x1024_S1024x64_S1024x64_1_0_0_1_n_n_lhs1 _ _).trans hk)
  have er : dot_S1024x1024_S1024x64_S1024x64_1_0_0_1_n_n.rhsIdx (ix2 n d) ((contrEquiv1 dot_S1024x1024_S1024x64_S1024x64_1_0_0_1_n_n 1024 rfl rfl).symm k) = ix2 k d :=
    funext fun x => Fin.ext (by
      match x with
      | ⟨0, _⟩ => exact (dot_S1024x1024_S1024x64_S1024x64_1_0_0_1_n_n_rhs0 _ _).trans hk
      | ⟨1, _⟩ => exact dot_S1024x1024_S1024x64_S1024x64_1_0_0_1_n_n_rhs1 _ _)
  rw [el, er]

theorem dot_S1024x64_S64x1024_S1024x1024_1_0_0_1_n_n_lhs0 (i : S1024x1024.Idx) (q : dot_S1024x64_S64x1024_S1024x1024_1_0_0_1_n_n.contr.Idx) : (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem dot_S1024x64_S64x1024_S1024x1024_1_0_0_1_n_n_lhs1 (i : S1024x1024.Idx) (q : dot_S1024x64_S64x1024_S1024x1024_1_0_0_1_n_n.contr.Idx) : (dot_S1024x64_S64x1024_S1024x1024_1_0_0_1_n_n.lhsIdx i q 1).val = (q ⟨0, by decide⟩).val :=
  dot_S1024x64_S64x1024_S1024x1024_1_0_0_1_n_n.lhsIdx_val_of_single rfl i q
theorem dot_S1024x64_S64x1024_S1024x1024_1_0_0_1_n_n_rhs0 (i : S1024x1024.Idx) (q : dot_S1024x64_S64x1024_S1024x1024_1_0_0_1_n_n.contr.Idx) : (dot_S1024x64_S64x1024_S1024x1024_1_0_0_1_n_n.rhsIdx i q 0).val = (q ⟨0, by decide⟩).val :=
  dot_S1024x64_S64x1024_S1024x1024_1_0_0_1_n_n.rhsIdx_val_of_single rfl i q
theorem dot_S1024x64_S64x1024_S1024x1024_1_0_0_1_n_n_rhs1 (i : S1024x1024.Idx) (q : dot_S1024x64_S64x1024_S1024x1024_1_0_0_1_n_n.contr.Idx) : (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- A 1024 × 64 matrix times a 64 × 1024 matrix into the zero accumulator: entry `(n, n')` is `∑_d l[n,d] · r[d,n']`. -/
theorem matmul_tall_apply {φ₁ φ₂ : FTy} (l : FVec Ideal S1024x64 φ₁) (r : FVec Ideal S64x1024 φ₂) (n n' : Fin 1024) :
    matmul dot_S1024x64_S64x1024_S1024x1024_1_0_0_1_n_n none l r (constant S1024x1024 .f32 0x00000000#32) (ix2 n n')
      = ∑ c : Fin 64, l (ix2 n c) * r (ix2 c n') := by
  refine (Ideal.matmul_constant_zero_apply dot_S1024x64_S64x1024_S1024x1024_1_0_0_1_n_n none l r (ix2 n n')).trans ?_
  rw [← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 n n') ((contrEquiv1 dot_S1024x64_S64x1024_S1024x1024_1_0_0_1_n_n 64 rfl rfl).symm k) = ix2 n k :=
    funext fun x => Fin.ext (by
      match x with
      | ⟨0, _⟩ => exact dot_S1024x64_S64x1024_S1024x1024_1_0_0_1_n_n_lhs0 _ _
      | ⟨1, _⟩ => exact (dot_S1024x64_S64x1024_S1024x1024_1_0_0_1_n_n_lhs1 _ _).trans hk)
  have er : dot_S1024x64_S64x1024_S1024x1024_1_0_0_1_n_n.rhsIdx (ix2 n n') ((contrEquiv1 dot_S1024x64_S64x1024_S1024x1024_1_0_0_1_n_n 64 rfl rfl).symm k) = ix2 k n' :=
    funext fun x => Fin.ext (by
      match x with
      | ⟨0, _⟩ => exact (dot_S1024x64_S64x1024_S1024x1024_1_0_0_1_n_n_rhs0 _ _).trans hk
      | ⟨1, _⟩ => exact dot_S1024x64_S64x1024_S1024x1024_1_0_0_1_n_n_rhs1 _ _)
  rw [el, er]

/-! ## The payloads at coordinates -/

/-- The feature block with its unit batch axis dropped (the change of format is the identity). -/
theorem feat_apply (v0 : Vec Ideal S1x1024x1024 .f32) (n c : Fin 1024) : k0_pay1 v0 (ix2 n c) = v0 (ix3 0 n c) := by
  unfold k0_pay1
  exact shapeCast_1ab_ab_apply v0 _ n c

/-- One weight slab `[1, 64, 1024]` cast, reformatted and transposed: entry `(c, d)` is the slab's `(0, d, c)`. -/
theorem slabT_apply (w : Vec Ideal S1x64x1024 .f32) (c : Fin 1024) (d : Fin 64) :
    transpose S1024x64 [1, 0] (truncf .bf16 (shapeCast S64x1024 w shapeCasts_S1x64x1024_S64x1024) bitsLt_bf16_f32 : FVec Ideal S64x1024 .bf16) transposes_S64x1024_p1_0_S1024x64 (ix2 c d)
      = w (ix3 0 d c) := by
  refine (transpose_ix2_apply _ _ c d).trans ?_
  exact shapeCast_1ab_ab_apply w _ d c

/-- One bias row `[1, 64]` cast to a vector, back to a row, and broadcast down the 1024 rows: entry `(n, d)` is the row's `(0, d)`. -/
theorem biasB_apply (b : Vec Ideal S1x64 .f32) (n : Fin 1024) (d : Fin 64) :
    broadcastTo S1024x64 (shapeCast S1x64 (shapeCast S64 b shapeCasts_S1x64_S64) shapeCasts_S64_S1x64) broadcasts_S1x64_S1024x64 (ix2 n d)
      = b (ix2 0 d) := by
  refine (broadcastTo_1b_ab_apply _ _ n d).trans ?_
  refine (shapeCast_a_1a_apply _ _ 0 d).trans ?_
  exact shapeCast_1a_a_apply b _ d

/-- The value projection of one head: `x · Wvᵀ + bv`. -/
theorem valueProj_apply (v2 : FVec Ideal S1024x1024 .bf16) (w : Vec Ideal S1x64x1024 .f32) (b : Vec Ideal S1x64 .f32) (n : Fin 1024) (d : Fin 64) :
    k0_pay3 v2 w b (ix2 n d) = (∑ c : Fin 1024, v2 (ix2 n c) * w (ix3 0 d c)) + b (ix2 0 d) := by
  unfold k0_pay3
  refine congrArg₂ (· + ·) ?_ (biasB_apply b n d)
  refine (matmul_wide_apply v2 _ n d).trans ?_
  exact Finset.sum_congr rfl fun c _ => congrArg (v2 (ix2 n c) * ·) (slabT_apply w c d)

/-- The scores of one head: `(q · kᵀ) · 1/8` with `q = x · Wqᵀ + bq` and `k = x · Wkᵀ + bk`. -/
theorem scores_apply (v2 : FVec Ideal S1024x1024 .bf16) (wq wk : Vec Ideal S1x64x1024 .f32) (bq bk : Vec Ideal S1x64 .f32) (n n' : Fin 1024) :
    k0_pay4 v2 wq wk bq bk (ix2 n n')
      = (∑ d : Fin 64, ((∑ c : Fin 1024, v2 (ix2 n c) * wq (ix3 0 d c)) + bq (ix2 0 d))
          * ((∑ c : Fin 1024, v2 (ix2 n' c) * wk (ix3 0 d c)) + bk (ix2 0 d))) * Cert.Attn.scaleW := by
  unfold k0_pay4
  refine congrArg₂ (· * ·) ?_ rfl
  refine (matmul_tall_apply _ _ n n').trans ?_
  refine Finset.sum_congr rfl fun d _ => congrArg₂ (· * ·) ?_ ?_
  · show k0_pay3 v2 wq bq (ix2 n d) = _
    exact valueProj_apply v2 wq bq n d
  · refine (transpose_ix2_apply _ _ d n').trans ?_
    show k0_pay3 v2 wk bk (ix2 n' d) = _
    exact valueProj_apply v2 wk bk n' d

/-- The reduced index `n` of a 1024 × 1024 array with the coordinate `k` put back on the reduced axis is `(n, k)`. -/
theorem lift_row (n k : Fin 1024) : reduces_S1024x1024_S1024.lift (ix1 n) k = ix2 n k :=
  funext fun a => Fin.ext (by match a with | ⟨0, _⟩ => rfl | ⟨1, _⟩ => rfl)

/-- A row maximum over the lanes, started from the word for `-∞`: the fold of `max` over the row. -/
theorem laneMax_apply (s : FVec Ideal S1024x1024 .f32) (n : Fin 1024) :
    multiReduction .maximumf [1] S1024 s 0xFF800000#32 reduces_S1024x1024_S1024 (.inl rfl) rfl (ix1 n)
      = (Finset.univ : Finset (Fin 1024)).fold max Cert.Attn.negInfW (fun n' => s (ix2 n n')) := by
  refine (Ideal.multiReduction_maximumf_single s 0xFF800000#32 reduces_S1024x1024_S1024 (.inl rfl) rfl (ix1 n)).trans ?_
  exact congrArg (Finset.fold max Cert.Attn.negInfW · Finset.univ) (funext fun k => congrArg s (lift_row n k))

/-- A row sum over the lanes, started from the zero word: the sum over the row. -/
theorem laneSum_apply (s : FVec Ideal S1024x1024 .f32) (n : Fin 1024) :
    multiReduction .add [1] S1024 s 0x00000000#32 reduces_S1024x1024_S1024 (.inl rfl) rfl (ix1 n)
      = ∑ j : Fin 1024, s (ix2 n j) := by
  refine (Ideal.multiReduction_add_single s 0x00000000#32 reduces_S1024x1024_S1024 (.inl rfl) rfl (ix1 n)).trans ?_
  exact Finset.sum_congr rfl fun k _ => congrArg s (lift_row n k)

/-- The row maxima of one head's scores. -/
theorem scoreMax_apply (v2 : FVec Ideal S1024x1024 .bf16) (wq wk : Vec Ideal S1x64x1024 .f32) (bq bk : Vec Ideal S1x64 .f32) (n : Fin 1024) :
    k0_pay5 v2 wq wk bq bk (ix1 n)
      = (Finset.univ : Finset (Fin 1024)).fold max Cert.Attn.negInfW (fun n' => k0_pay4 v2 wq wk bq bk (ix2 n n')) := by
  unfold k0_pay5
  exact laneMax_apply _ n

/-- A per-row value kept as a column and broadcast along the lanes reads, at `(n, n')`, the value of row `n`. -/
theorem colBroadcast_apply (v : FVec Ideal S1024 .f32) (n n' : Fin 1024) :
    broadcastTo S1024x1024 (shapeCast S1024x1 v shapeCasts_S1024_S1024x1) broadcasts_S1024x1_S1024x1024 (ix2 n n') = v (ix1 n) := by
  refine (Cert.LibKeepdims.broadcastTo_a1_ab_apply _ _ n n').trans ?_
  exact Cert.LibKeepdims.shapeCast_a_a1_apply v _ n 0

/-- A 1024 × 64 matrix given two leading unit axes reads, at `(0, 0, n, d)`, its entry `(n, d)`. -/
theorem unit2_apply (v : FVec Ideal S1024x64 .f32) (u u' : Fin 1) (n : Fin 1024) (d : Fin 64) :
    shapeCast S1x1x1024x64 v shapeCasts_S1024x64_S1x1x1024x64 (ix4 u u' n d) = v (ix2 n d) :=
  shapeCast_apply v _ _ _ (by
    have hu : u.val = 0 := by omega
    have hu' : u'.val = 0 := by omega
    rw [Shape.rowMajor_val_two, Shape.rowMajor_val_four]
    show n.val * 64 + d.val = ((u.val * 1 + u'.val) * 1024 + n.val) * 64 + d.val
    rw [hu, hu']; omega)

/-- The head's result from its value projection `v39`, its scores `v45`, their row maxima `v46` and the `-∞` the maximum
    is taken against once more: the softmax weights of row `n` times column `d` of the value projection. -/
theorem head_apply (v39 : FVec Ideal S1024x64 .f32) (v45 : FVec Ideal S1024x1024 .f32) (v46 : FVec Ideal S1024 .f32) (cst : Ideal .f32)
    (u u' : Fin 1) (n : Fin 1024) (d : Fin 64) :
    k0_pay2 v39 v45 v46 cst (ix4 u u' n d)
      = ∑ n' : Fin 1024, Ideal.div (Ideal.exp (v45 (ix2 n n') - max cst (v46 (ix1 n))))
            (∑ j : Fin 1024, Ideal.exp (v45 (ix2 n j) - max cst (v46 (ix1 n)))) * v39 (ix2 n' d) := by
  unfold k0_pay2
  refine (unit2_apply _ u u' n d).trans ?_
  refine (matmul_wide_apply _ _ n d).trans ?_
  refine Finset.sum_congr rfl fun n' _ => congrArg₂ (· * ·) ?_ rfl
  refine congrArg₂ Ideal.div ?_ ?_
  · exact congrArg (fun z => Ideal.exp (v45 (ix2 n n') - z)) (colBroadcast_apply _ n n')
  · refine (colBroadcast_apply _ n n').trans ?_
    refine (laneSum_apply _ n).trans ?_
    exact Finset.sum_congr rfl fun j _ => congrArg (fun z => Ideal.exp (v45 (ix2 n j) - z)) (colBroadcast_apply _ n j)

end Cert.KernelIdeal.AttnPayload

end
-- ==== Proof.AttnHead.lean ====
/-
  One trip of the loop over heads, as the block-level function: if the three weight slabs and bias rows the trip loads
  are head `h`'s slices of the whole weight and bias arrays, what the trip stores is head `h` of the block's result —
  the projections, scores, row maxima, exponentials, row sums and quotients of the payload are, term by term, those of
  the block-level definition.
-/
import proofs.«167884_j42846593745002_1_alg».proof.Proof.AttnPayload
import proofs.«167884_j42846593745002_1_alg».proof.Proof.AttnBlock

set_option maxRecDepth 16384

noncomputable section

namespace Cert.KernelIdeal.AttnHead

open Cert.KernelIdeal Cert.KernelIdeal.Gen Cert.KernelIdeal.AttnPayload
open Idealize.ShloMosaic Idealize.ShloMosaic.ValueIdx

/-- A projection of the feature block by one head's loaded slab and bias row is that head's block-level projection. -/
theorem proj_eq (v0 : Vec Ideal S1x1024x1024 .f32) (w : Vec Ideal S1x64x1024 .f32) (b : Vec Ideal S1x64 .f32)
    (W : Vec Ideal S4x64x1024 .f32) (B : Vec Ideal S4x64 .f32) (h : Fin 4)
    (hw : ∀ (d : Fin 64) (c : Fin 1024), w (ix3 0 d c) = W (ix3 h d c)) (hb : ∀ d : Fin 64, b (ix2 0 d) = B (ix2 h d))
    (n : Fin 1024) (d : Fin 64) :
    (∑ c : Fin 1024, k0_pay1 v0 (ix2 n c) * w (ix3 0 d c)) + b (ix2 0 d) = AttnBlock.bproj v0 W B h n d := by
  unfold AttnBlock.bproj
  rw [hb d]
  exact congrArg (· + B (ix2 h d)) (Finset.sum_congr rfl fun c _ => by rw [feat_apply, hw d c])

/-- The trip's scores are head `h`'s block-level scores. -/
theorem score_eq (v0 : Vec Ideal S1x1024x1024 .f32) (wq wk : Vec Ideal S1x64x1024 .f32) (bq bk : Vec Ideal S1x64 .f32)
    (Wq : Vec Ideal S4x64x1024 .f32) (Bq : Vec Ideal S4x64 .f32) (Wk : Vec Ideal S4x64x1024 .f32) (Bk : Vec Ideal S4x64 .f32) (h : Fin 4)
    (hwq : ∀ (d : Fin 64) (c : Fin 1024), wq (ix3 0 d c) = Wq (ix3 h d c)) (hbq : ∀ d : Fin 64, bq (ix2 0 d) = Bq (ix2 h d))
    (hwk : ∀ (d : Fin 64) (c : Fin 1024), wk (ix3 0 d c) = Wk (ix3 h d c)) (hbk : ∀ d : Fin 64, bk (ix2 0 d) = Bk (ix2 h d))
    (n n' : Fin 1024) :
    k0_pay4 (k0_pay1 v0) wq wk bq bk (ix2 n n') = AttnBlock.bscore v0 Wq Bq Wk Bk h n n' := by
  refine (scores_apply _ wq wk bq bk n n').trans ?_
  unfold AttnBlock.bscore
  exact congrArg (· * Cert.Attn.scaleW) (Finset.sum_congr rfl fun d _ => by
    rw [proj_eq v0 wq bq Wq Bq h hwq hbq n d, proj_eq v0 wk bk Wk Bk h hwk hbk n' d])

/-- What one trip stores, at `(0, 0, n, d)` of its piece, is head `h` of the block's result at row `n`, feature `d`. -/
theorem headTrip_apply (v0 : Vec Ideal S1x1024x1024 .f32) (wq wk wv : Vec Ideal S1x64x1024 .f32) (bq bk bv : Vec Ideal S1x64 .f32)
    (Wq : Vec Ideal S4x64x1024 .f32) (Bq : Vec Ideal S4x64 .f32) (Wk : Vec Ideal S4x64x1024 .f32) (Bk : Vec Ideal S4x64 .f32)
    (Wv : Vec Ideal S4x64x1024 .f32) (Bv : Vec Ideal S4x64 .f32) (h : Fin 4)
    (hwq : ∀ (d : Fin 64) (c : Fin 1024), wq (ix3 0 d c) = Wq (ix3 h d c)) (hbq : ∀ d : Fin 64, bq (ix2 0 d) = Bq (ix2 h d))
    (hwk : ∀ (d : Fin 64) (c : Fin 1024), wk (ix3 0 d c) = Wk (ix3 h d c)) (hbk : ∀ d : Fin 64, bk (ix2 0 d) = Bk (ix2 h d))
    (hwv : ∀ (d : Fin 64) (c : Fin 1024), wv (ix3 0 d c) = Wv (ix3 h d c)) (hbv : ∀ d : Fin 64, bv (ix2 0 d) = Bv (ix2 h d))
    (u u' : Fin 1) (n : Fin 1024) (d : Fin 64) :
    k0_pay2 (k0_pay3 (k0_pay1 v0) wv bv) (k0_pay4 (k0_pay1 v0) wq wk bq bk) (k0_pay5 (k0_pay1 v0) wq wk bq bk)
        (FloatOps.ofBits .f32 0xFF800000#32) (ix4 u u' n d)
      = AttnBlock.bhead v0 Wq Bq Wk Bk Wv Bv h n d := by
  have hscore := score_eq v0 wq wk bq bk Wq Bq Wk Bk h hwq hbq hwk hbk
  have hmax : k0_pay5 (k0_pay1 v0) wq wk bq bk (ix1 n)
      = (Finset.univ : Finset (Fin 1024)).fold max Cert.Attn.negInfW (fun k => AttnBlock.bscore v0 Wq Bq Wk Bk h n k) := by
    refine (scoreMax_apply _ wq wk bq bk n).trans ?_
    exact congrArg (Finset.fold max Cert.Attn.negInfW · Finset.univ) (funext fun k => hscore n k)
  refine (head_apply _ _ _ _ u u' n d).trans ?_
  unfold AttnBlock.bhead
  refine Finset.sum_congr rfl fun n' _ => congrArg₂ (· * ·) ?_ ?_
  · unfold Cert.Attn.softmaxRow Cert.Attn.rowMax
    rw [hmax]
    simp only [hscore]
    rfl
  · refine (valueProj_apply _ wv bv n' d).trans ?_
    exact proj_eq v0 wv bv Wv Bv h hwv hbv n' d

/-- The same for the second self-attention kernel, whose payload is the same text under other names. -/
theorem headTrip1_apply (v0 : Vec Ideal S1x1024x1024 .f32) (wq wk wv : Vec Ideal S1x64x1024 .f32) (bq bk bv : Vec Ideal S1x64 .f32)
    (Wq : Vec Ideal S4x64x1024 .f32) (Bq : Vec Ideal S4x64 .f32) (Wk : Vec Ideal S4x64x1024 .f32) (Bk : Vec Ideal S4x64 .f32)
    (Wv : Vec Ideal S4x64x1024 .f32) (Bv : Vec Ideal S4x64 .f32) (h : Fin 4)
    (hwq : ∀ (d : Fin 64) (c : Fin 1024), wq (ix3 0 d c) = Wq (ix3 h d c)) (hbq : ∀ d : Fin 64, bq (ix2 0 d) = Bq (ix2 h d))
    (hwk : ∀ (d : Fin 64) (c : Fin 1024), wk (ix3 0 d c) = Wk (ix3 h d c)) (hbk : ∀ d : Fin 64, bk (ix2 0 d) = Bk (ix2 h d))
    (hwv : ∀ (d : Fin 64) (c : Fin 1024), wv (ix3 0 d c) = Wv (ix3 h d c)) (hbv : ∀ d : Fin 64, bv (ix2 0 d) = Bv (ix2 h d))
    (u u' : Fin 1) (n : Fin 1024) (d : Fin 64) :
    k1_pay2 (k1_pay3 (k1_pay1 v0) wv bv) (k1_pay4 (k1_pay1 v0) wq wk bq bk) (k1_pay5 (k1_pay1 v0) wq wk bq bk)
        (FloatOps.ofBits .f32 0xFF800000#32) (ix4 u u' n d)
      = AttnBlock.bhead v0 Wq Bq Wk Bk Wv Bv h n d :=
  headTrip_apply v0 wq wk wv bq bk bv Wq Bq Wk Bk Wv Bv h hwq hbq hwk hbk hwv hbv u u' n d

end Cert.KernelIdeal.AttnHead

end
-- ==== Proof.AttnBody0.lean ====
/-
  What one grid point of the first self-attention kernel leaves in its output block. The body loads the feature block
  once and then runs four trips, one per head; trip `k` loads head `k`'s slices of the six weight and bias arrays and
  stores one piece, at offset `(0, k, 0, 0)`, of extent 1 × 1 × 1024 × 64. Every piece the run leaves is some trip's
  piece, each trip's piece is head `k` of the block-level function on the rectangle it is stored through, and the
  pieces cover the block: so the block reads that function everywhere.
-/
import proofs.«167884_j42846593745002_1_alg».proof.Proof.Gen.KernelIdeal.Frame
import proofs.«167884_j42846593745002_1_alg».proof.Proof.AttnHead
import Idealize.ShloMosaic.Lib.Pipeline.Value

set_option maxRecDepth 16384

noncomputable section

namespace Cert.KernelIdeal.AttnBody0

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-- The loop has at most four trips. -/
theorem trip_lt (k : Fin k0_t1_loop.trips) : k.val < 4 := Nat.lt_of_lt_of_le k.isLt k0_t1_abs.2.1

/-- Every piece written before trip `n` is a piece of some trip. -/
theorem mem_pb {F : FTy → Type} [FloatOps F] (𝒱 : Variants) (c : Dev nD) (bd : Option 𝒱.V) (i : grid0.Coords) (arg1 : Memref sig .tc .vmem S1x1024x1024 .f32) (harg1 : arg1.IsWhole) (arg2 : Memref sig .tc .vmem S4x64x1024 .f32) (harg2 : arg2.IsWhole) (arg3 : Memref sig .tc .vmem S4x64 .f32) (harg3 : arg3.IsWhole) (arg4 : Memref sig .tc .vmem S4x64x1024 .f32) (harg4 : arg4.IsWhole) (arg5 : Memref sig .tc .vmem S4x64 .f32) (harg5 : arg5.IsWhole) (arg6 : Memref sig .tc .vmem S4x64x1024 .f32) (harg6 : arg6.IsWhole) (arg7 : Memref sig .tc .vmem S4x64 .f32) (harg7 : arg7.IsWhole) (arg8 : Memref sig .tc .vmem S1x4x1024x64 .f32) (harg8 : arg8.IsWhole) (v0 : Vec F S1x1024x1024 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) :
    ∀ (n : ℕ) (p : View.Piece (Elt F) S1x4x1024x64 .f32), p ∈ pb_k0_t1 (F := F) 𝒱 c bd i arg1 harg1 arg2 harg2 arg3 harg3 arg4 harg4 arg5 harg5 arg6 harg6 arg7 harg7 arg8 harg8 v0 X_arg2 X_arg3 X_arg4 X_arg5 X_arg6 X_arg7 n →
      ∃ k : Fin k0_t1_loop.trips, p ∈ tripL_k0_t1 (F := F) 𝒱 c bd i arg1 harg1 arg2 harg2 arg3 harg3 arg4 harg4 arg5 harg5 arg6 harg6 arg7 harg7 arg8 harg8 v0 X_arg2 X_arg3 X_arg4 X_arg5 X_arg6 X_arg7 k := by
  intro n
  induction n with
  | zero =>
    intro p hp
    rw [pb_k0_t1.eq_1] at hp
    exact absurd hp List.not_mem_nil
  | succ n ih =>
    intro p hp
    rw [pb_k0_t1.eq_2] at hp
    unfold pb_k0_t1Step at hp
    split at hp
    · rename_i h
      rcases List.mem_append.mp hp with h1 | h1
      · exact ⟨⟨n, h⟩, h1⟩
      · exact ih p h1
    · exact ih p hp

/-- A trip's load of a weight array reads head `k`'s slab: entry `(0, d, c)` of the load is `(k, d, c)` of the array. -/
theorem slab_load (arg : Memref sig .tc .vmem S4x64x1024 .f32) (harg : arg.IsWhole) (X : Vec Ideal S4x64x1024 .f32)
    (k : Fin k0_t1_loop.trips) (d : Fin 64) (c : Fin 1024) :
    View.readAt (Elt Ideal) arg.view (Rect.unit (s := S4x64x1024) (k0_off1 k) S1x64x1024.size (k0_off1_inb k)).toLoadRect (harg.unread X) (ix3 0 d c)
      = X (ix3 (⟨k.val, trip_lt k⟩ : Fin 4) d c) := by
  rw [View.readAt_eq_ld, harg.read_unread]
  show X ((Rect.unit (s := S4x64x1024) (k0_off1 k) S1x64x1024.size (k0_off1_inb k)).emb (ix3 0 d c)) = _
  refine congrArg X (funext fun a => Fin.ext ?_)
  rw [Rect.emb_apply]
  have e := k0_off1_eq k
  match a with
  | ⟨0, _⟩ => show (k0_off1 k) 0 + 1 * 0 = k.val; rw [e]; rfl
  | ⟨1, _⟩ => show (k0_off1 k) 1 + 1 * d.val = d.val; rw [e]; show 0 + 1 * d.val = d.val; omega
  | ⟨2, _⟩ => show (k0_off1 k) 2 + 1 * c.val = c.val; rw [e]; show 0 + 1 * c.val = c.val; omega

/-- A trip's load of a bias array reads head `k`'s row: entry `(0, d)` of the load is `(k, d)` of the array. -/
theorem bias_load (arg : Memref sig .tc .vmem S4x64 .f32) (harg : arg.IsWhole) (X : Vec Ideal S4x64 .f32)
    (k : Fin k0_t1_loop.trips) (d : Fin 64) :
    View.readAt (Elt Ideal) arg.view (Rect.unit (s := S4x64) (k0_off2 k) S1x64.size (k0_off2_inb k)).toLoadRect (harg.unread X) (ix2 0 d)
      = X (ix2 (⟨k.val, trip_lt k⟩ : Fin 4) d) := by
  rw [View.readAt_eq_ld, harg.read_unread]
  show X ((Rect.unit (s := S4x64) (k0_off2 k) S1x64.size (k0_off2_inb k)).emb (ix2 0 d)) = _
  refine congrArg X (funext fun a => Fin.ext ?_)
  rw [Rect.emb_apply]
  have e := k0_off2_eq k
  match a with
  | ⟨0, _⟩ => show (k0_off2 k) 0 + 1 * 0 = k.val; rw [e]; rfl
  | ⟨1, _⟩ => show (k0_off2 k) 1 + 1 * d.val = d.val; rw [e]; show 0 + 1 * d.val = d.val; omega

/-- Trip `k`'s one piece is head `k` of the block-level function on the rectangle it is stored through. -/
theorem trip_agrees (c : Dev nD) (i : grid0.Coords) (arg1 : Memref sig .tc .vmem S1x1024x1024 .f32) (harg1 : arg1.IsWhole) (arg2 : Memref sig .tc .vmem S4x64x1024 .f32) (harg2 : arg2.IsWhole) (arg3 : Memref sig .tc .vmem S4x64 .f32) (harg3 : arg3.IsWhole) (arg4 : Memref sig .tc .vmem S4x64x1024 .f32) (harg4 : arg4.IsWhole) (arg5 : Memref sig .tc .vmem S4x64 .f32) (harg5 : arg5.IsWhole) (arg6 : Memref sig .tc .vmem S4x64x1024 .f32) (harg6 : arg6.IsWhole) (arg7 : Memref sig .tc .vmem S4x64 .f32) (harg7 : arg7.IsWhole) (arg8 : Memref sig .tc .vmem S1x4x1024x64 .f32) (harg8 : arg8.IsWhole)
    (v0 : Vec Ideal S1x1024x1024 .f32) (x1 : Vec Ideal S4x64x1024 .f32) (x2 : Vec Ideal S4x64 .f32) (x3 : Vec Ideal S4x64x1024 .f32) (x4 : Vec Ideal S4x64 .f32) (x5 : Vec Ideal S4x64x1024 .f32) (x6 : Vec Ideal S4x64 .f32)
    (k : Fin k0_t1_loop.trips) :
    ∀ p ∈ tripL_k0_t1 (F := Ideal) Variants.none c none i arg1 harg1 arg2 harg2 arg3 harg3 arg4 harg4 arg5 harg5 arg6 harg6 arg7 harg7 arg8 harg8 v0 (harg2.unread x1) (harg3.unread x2) (harg4.unread x3) (harg5.unread x4) (harg6.unread x5) (harg7.unread x6) k,
      ∀ x : p.1.shape.Idx, p.2 x = AttnBlock.blockOut v0 x1 x2 x3 x4 x5 x6 (p.1.emb x) := by
  intro p hp
  unfold tripL_k0_t1 trip_k0_t1 at hp
  dsimp only at hp
  rw [List.mem_singleton] at hp
  subst hp
  intro x
  dsimp only
  sl_unfold_words
  obtain ⟨u, u', n, d, rfl⟩ : ∃ (u u' : Fin 1) (n : Fin 1024) (d : Fin 64), x = ix4 u u' n d := ⟨x 0, x 1, x 2, x 3, eq_ix4 x⟩
  refine (AttnHead.headTrip_apply v0 _ _ _ _ _ _ x1 x2 x3 x4 x5 x6 (⟨k.val, trip_lt k⟩ : Fin 4)
    (slab_load arg2 harg2 x1 k) (bias_load arg3 harg3 x2 k) (slab_load arg4 harg4 x3 k) (bias_load arg5 harg5 x4 k)
    (slab_load arg6 harg6 x5 k) (bias_load arg7 harg7 x6 k) u u' n d).trans ?_
  have e := k0_off3_eq k
  have hu' : u'.val = 0 := by omega
  have h1 : (Rect.unit (s := S1x4x1024x64) (k0_off3 k) ![1, 1, 1024, 64] (k0_off3_inb k)).emb (ix4 u u' n d) 1 = (⟨k.val, trip_lt k⟩ : Fin 4) :=
    Fin.ext (by show (k0_off3 k) 1 + 1 * u'.val = k.val; rw [e, hu']; rfl)
  have h2 : (Rect.unit (s := S1x4x1024x64) (k0_off3 k) ![1, 1, 1024, 64] (k0_off3_inb k)).emb (ix4 u u' n d) 2 = n :=
    Fin.ext (by show (k0_off3 k) 2 + 1 * n.val = n.val; rw [e]; show 0 + 1 * n.val = n.val; omega)
  have h3 : (Rect.unit (s := S1x4x1024x64) (k0_off3 k) ![1, 1, 1024, 64] (k0_off3_inb k)).emb (ix4 u u' n d) 3 = d :=
    Fin.ext (by show (k0_off3 k) 3 + 1 * d.val = d.val; rw [e]; show 0 + 1 * d.val = d.val; omega)
  show AttnBlock.bhead v0 x1 x2 x3 x4 x5 x6 (⟨k.val, trip_lt k⟩ : Fin 4) n d
    = AttnBlock.bhead v0 x1 x2 x3 x4 x5 x6
        ((Rect.unit (s := S1x4x1024x64) (k0_off3 k) ![1, 1, 1024, 64] (k0_off3_inb k)).emb (ix4 u u' n d) 1)
        ((Rect.unit (s := S1x4x1024x64) (k0_off3 k) ![1, 1, 1024, 64] (k0_off3_inb k)).emb (ix4 u u' n d) 2)
        ((Rect.unit (s := S1x4x1024x64) (k0_off3 k) ![1, 1, 1024, 64] (k0_off3_inb k)).emb (ix4 u u' n d) 3)
  rw [h1, h2, h3]

/-- The whole-block load of the feature block reads the block. -/
theorem feat_load (arg1 : Memref sig .tc .vmem S1x1024x1024 .f32) (harg1 : arg1.IsWhole) (x0 : Vec Ideal S1x1024x1024 .f32) :
    View.readAt (Elt Ideal) arg1.view (Rect.unit (s := S1x1024x1024) ![0, 0, 0] S1x1024x1024.size inb_S1x1024x1024_S1x1024x1024_0_0_0).toLoadRect (harg1.unread x0) = x0 := by
  rw [View.readAt_eq_ld, harg1.read_unread]
  exact View.ld_unit_zero (S := S1x1024x1024) (funext fun a => by match a with | ⟨0, _⟩ => rfl | ⟨1, _⟩ => rfl | ⟨2, _⟩ => rfl) _ x0

/-- What the run leaves in the output's staging buffer is the block-level function of the input blocks. -/
theorem out_eq (c : Dev nD) (i : grid0.Coords) (arg1 : Memref sig .tc .vmem S1x1024x1024 .f32) (harg1 : arg1.IsWhole) (arg2 : Memref sig .tc .vmem S4x64x1024 .f32) (harg2 : arg2.IsWhole) (arg3 : Memref sig .tc .vmem S4x64 .f32) (harg3 : arg3.IsWhole) (arg4 : Memref sig .tc .vmem S4x64x1024 .f32) (harg4 : arg4.IsWhole) (arg5 : Memref sig .tc .vmem S4x64 .f32) (harg5 : arg5.IsWhole) (arg6 : Memref sig .tc .vmem S4x64x1024 .f32) (harg6 : arg6.IsWhole) (arg7 : Memref sig .tc .vmem S4x64 .f32) (harg7 : arg7.IsWhole) (arg8 : Memref sig .tc .vmem S1x4x1024x64 .f32) (harg8 : arg8.IsWhole)
    (x0 : Vec Ideal S1x1024x1024 .f32) (x1 : Vec Ideal S4x64x1024 .f32) (x2 : Vec Ideal S4x64 .f32) (x3 : Vec Ideal S4x64x1024 .f32) (x4 : Vec Ideal S4x64 .f32) (x5 : Vec Ideal S4x64x1024 .f32) (x6 : Vec Ideal S4x64 .f32) :
    out0_A_7 (F := Ideal) c i arg1 harg1 arg2 harg2 arg3 harg3 arg4 harg4 arg5 harg5 arg6 harg6 arg7 harg7 arg8 harg8 x0 x1 x2 x3 x4 x5 x6 = AttnBlock.blockOut x0 x1 x2 x3 x4 x5 x6 := by
  funext y
  unfold out0_A_7
  refine View.read_writes_apply_of_pieces VO0_7 VO0_7.junk (AttnBlock.blockOut x0 x1 x2 x3 x4 x5 x6) _ ?_ y
    (cover0_A_7 c i arg1 harg1 arg2 harg2 arg3 harg3 arg4 harg4 arg5 harg5 arg6 harg6 arg7 harg7 arg8 harg8 x0 x1 x2 x3 x4 x5 x6 y)
  intro p hp x
  unfold kernelRun0_A at hp
  dsimp only at hp
  obtain ⟨k, hk⟩ := mem_pb _ _ _ _ _ _ _ _ _ _ _ _ _ _ _ _ _ _ _ _ _ _ _ _ _ _ _ _ p hp
  have h := trip_agrees c i arg1 harg1 arg2 harg2 arg3 harg3 arg4 harg4 arg5 harg5 arg6 harg6 arg7 harg7 arg8 harg8 _ x1 x2 x3 x4 x5 x6 k p hk x
  rw [feat_load arg1 harg1 x0] at h
  exact h

/-- At every grid point: the output block after the body is the block-level function of the point's input blocks. -/
theorem body_eq (V : (c : Dev nD) → (b : Ref sig .tc) → Buf (Elt Ideal) ((c : Thread nD τ).loc b)) (c : Dev nD) (t : Fin cfg0.N) :
    outsAt0 (F := Ideal) V c t = AttnBlock.blockOut (iblk0 V c 0 t) (iblk0 V c 1 t) (iblk0 V c 2 t) (iblk0 V c 3 t) (iblk0 V c 4 t) (iblk0 V c 5 t) (iblk0 V c 6 t) := by
  unfold outsAt0
  exact out_eq _ _ _ _ _ _ _ _ _ _ _ _ _ _ _ _ _ _ _ _ _ _ _ _ _

end Cert.KernelIdeal.AttnBody0

end
-- ==== Proof.AttnBody1.lean ====
/-
  What one grid point of the second self-attention kernel leaves in its output block. The body loads the feature block
  once and then runs four trips, one per head; trip `k` loads head `k`'s slices of the six weight and bias arrays and
  stores one piece, at offset `(0, k, 0, 0)`, of extent 1 × 1 × 1024 × 64. Every piece the run leaves is some trip's
  piece, each trip's piece is head `k` of the block-level function on the rectangle it is stored through, and the
  pieces cover the block: so the block reads that function everywhere.
-/
import proofs.«167884_j42846593745002_1_alg».proof.Proof.Gen.KernelIdeal.Frame
import proofs.«167884_j42846593745002_1_alg».proof.Proof.AttnHead
import Idealize.ShloMosaic.Lib.Pipeline.Value

set_option maxRecDepth 16384

noncomputable section

namespace Cert.KernelIdeal.AttnBody1

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-- The loop has at most four trips. -/
theorem trip_lt (k : Fin k1_t1_loop.trips) : k.val < 4 := Nat.lt_of_lt_of_le k.isLt k1_t1_abs.2.1

/-- Every piece written before trip `n` is a piece of some trip. -/
theorem mem_pb {F : FTy → Type} [FloatOps F] (𝒱 : Variants) (c : Dev nD) (bd : Option 𝒱.V) (i : grid1.Coords) (arg1 : Memref sig .tc .vmem S1x1024x1024 .f32) (harg1 : arg1.IsWhole) (arg2 : Memref sig .tc .vmem S4x64x1024 .f32) (harg2 : arg2.IsWhole) (arg3 : Memref sig .tc .vmem S4x64 .f32) (harg3 : arg3.IsWhole) (arg4 : Memref sig .tc .vmem S4x64x1024 .f32) (harg4 : arg4.IsWhole) (arg5 : Memref sig .tc .vmem S4x64 .f32) (harg5 : arg5.IsWhole) (arg6 : Memref sig .tc .vmem S4x64x1024 .f32) (harg6 : arg6.IsWhole) (arg7 : Memref sig .tc .vmem S4x64 .f32) (harg7 : arg7.IsWhole) (arg8 : Memref sig .tc .vmem S1x4x1024x64 .f32) (harg8 : arg8.IsWhole) (v0 : Vec F S1x1024x1024 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) :
    ∀ (n : ℕ) (p : View.Piece (Elt F) S1x4x1024x64 .f32), p ∈ pb_k1_t1 (F := F) 𝒱 c bd i arg1 harg1 arg2 harg2 arg3 harg3 arg4 harg4 arg5 harg5 arg6 harg6 arg7 harg7 arg8 harg8 v0 X_arg2 X_arg3 X_arg4 X_arg5 X_arg6 X_arg7 n →
      ∃ k : Fin k1_t1_loop.trips, p ∈ tripL_k1_t1 (F := F) 𝒱 c bd i arg1 harg1 arg2 harg2 arg3 harg3 arg4 harg4 arg5 harg5 arg6 harg6 arg7 harg7 arg8 harg8 v0 X_arg2 X_arg3 X_arg4 X_arg5 X_arg6 X_arg7 k := by
  intro n
  induction n with
  | zero =>
    intro p hp
    rw [pb_k1_t1.eq_1] at hp
    exact absurd hp List.not_mem_nil
  | succ n ih =>
    intro p hp
    rw [pb_k1_t1.eq_2] at hp
    unfold pb_k1_t1Step at hp
    split at hp
    · rename_i h
      rcases List.mem_append.mp hp with h1 | h1
      · exact ⟨⟨n, h⟩, h1⟩
      · exact ih p h1
    · exact ih p hp

/-- A trip's load of a weight array reads head `k`'s slab: entry `(0, d, c)` of the load is `(k, d, c)` of the array. -/
theorem slab_load (arg : Memref sig .tc .vmem S4x64x1024 .f32) (harg : arg.IsWhole) (X : Vec Ideal S4x64x1024 .f32)
    (k : Fin k1_t1_loop.trips) (d : Fin 64) (c : Fin 1024) :
    View.readAt (Elt Ideal) arg.view (Rect.unit (s := S4x64x1024) (k1_off1 k) S1x64x1024.size (k1_off1_inb k)).toLoadRect (harg.unread X) (ix3 0 d c)
      = X (ix3 (⟨k.val, trip_lt k⟩ : Fin 4) d c) := by
  rw [View.readAt_eq_ld, harg.read_unread]
  show X ((Rect.unit (s := S4x64x1024) (k1_off1 k) S1x64x1024.size (k1_off1_inb k)).emb (ix3 0 d c)) = _
  refine congrArg X (funext fun a => Fin.ext ?_)
  rw [Rect.emb_apply]
  have e := k1_off1_eq k
  match a with
  | ⟨0, _⟩ => show (k1_off1 k) 0 + 1 * 0 = k.val; rw [e]; rfl
  | ⟨1, _⟩ => show (k1_off1 k) 1 + 1 * d.val = d.val; rw [e]; show 0 + 1 * d.val = d.val; omega
  | ⟨2, _⟩ => show (k1_off1 k) 2 + 1 * c.val = c.val; rw [e]; show 0 + 1 * c.val = c.val; omega

/-- A trip's load of a bias array reads head `k`'s row: entry `(0, d)` of the load is `(k, d)` of the array. -/
theorem bias_load (arg : Memref sig .tc .vmem S4x64 .f32) (harg : arg.IsWhole) (X : Vec Ideal S4x64 .f32)
    (k : Fin k1_t1_loop.trips) (d : Fin 64) :
    View.readAt (Elt Ideal) arg.view (Rect.unit (s := S4x64) (k1_off2 k) S1x64.size (k1_off2_inb k)).toLoadRect (harg.unread X) (ix2 0 d)
      = X (ix2 (⟨k.val, trip_lt k⟩ : Fin 4) d) := by
  rw [View.readAt_eq_ld, harg.read_unread]
  show X ((Rect.unit (s := S4x64) (k1_off2 k) S1x64.size (k1_off2_inb k)).emb (ix2 0 d)) = _
  refine congrArg X (funext fun a => Fin.ext ?_)
  rw [Rect.emb_apply]
  have e := k1_off2_eq k
  match a with
  | ⟨0, _⟩ => show (k1_off2 k) 0 + 1 * 0 = k.val; rw [e]; rfl
  | ⟨1, _⟩ => show (k1_off2 k) 1 + 1 * d.val = d.val; rw [e]; show 0 + 1 * d.val = d.val; omega

/-- Trip `k`'s one piece is head `k` of the block-level function on the rectangle it is stored through. -/
theorem trip_agrees (c : Dev nD) (i : grid1.Coords) (arg1 : Memref sig .tc .vmem S1x1024x1024 .f32) (harg1 : arg1.IsWhole) (arg2 : Memref sig .tc .vmem S4x64x1024 .f32) (harg2 : arg2.IsWhole) (arg3 : Memref sig .tc .vmem S4x64 .f32) (harg3 : arg3.IsWhole) (arg4 : Memref sig .tc .vmem S4x64x1024 .f32) (harg4 : arg4.IsWhole) (arg5 : Memref sig .tc .vmem S4x64 .f32) (harg5 : arg5.IsWhole) (arg6 : Memref sig .tc .vmem S4x64x1024 .f32) (harg6 : arg6.IsWhole) (arg7 : Memref sig .tc .vmem S4x64 .f32) (harg7 : arg7.IsWhole) (arg8 : Memref sig .tc .vmem S1x4x1024x64 .f32) (harg8 : arg8.IsWhole)
    (v0 : Vec Ideal S1x1024x1024 .f32) (x1 : Vec Ideal S4x64x1024 .f32) (x2 : Vec Ideal S4x64 .f32) (x3 : Vec Ideal S4x64x1024 .f32) (x4 : Vec Ideal S4x64 .f32) (x5 : Vec Ideal S4x64x1024 .f32) (x6 : Vec Ideal S4x64 .f32)
    (k : Fin k1_t1_loop.trips) :
    ∀ p ∈ tripL_k1_t1 (F := Ideal) Variants.none c none i arg1 harg1 arg2 harg2 arg3 harg3 arg4 harg4 arg5 harg5 arg6 harg6 arg7 harg7 arg8 harg8 v0 (harg2.unread x1) (harg3.unread x2) (harg4.unread x3) (harg5.unread x4) (harg6.unread x5) (harg7.unread x6) k,
      ∀ x : p.1.shape.Idx, p.2 x = AttnBlock.blockOut v0 x1 x2 x3 x4 x5 x6 (p.1.emb x) := by
  intro p hp
  unfold tripL_k1_t1 trip_k1_t1 at hp
  dsimp only at hp
  rw [List.mem_singleton] at hp
  subst hp
  intro x
  dsimp only
  sl_unfold_words
  obtain ⟨u, u', n, d, rfl⟩ : ∃ (u u' : Fin 1) (n : Fin 1024) (d : Fin 64), x = ix4 u u' n d := ⟨x 0, x 1, x 2, x 3, eq_ix4 x⟩
  refine (AttnHead.headTrip1_apply v0 _ _ _ _ _ _ x1 x2 x3 x4 x5 x6 (⟨k.val, trip_lt k⟩ : Fin 4)
    (slab_load arg2 harg2 x1 k) (bias_load arg3 harg3 x2 k) (slab_load arg4 harg4 x3 k) (bias_load arg5 harg5 x4 k)
    (slab_load arg6 harg6 x5 k) (bias_load arg7 harg7 x6 k) u u' n d).trans ?_
  have e := k1_off3_eq k
  have hu' : u'.val = 0 := by omega
  have h1 : (Rect.unit (s := S1x4x1024x64) (k1_off3 k) ![1, 1, 1024, 64] (k1_off3_inb k)).emb (ix4 u u' n d) 1 = (⟨k.val, trip_lt k⟩ : Fin 4) :=
    Fin.ext (by show (k1_off3 k) 1 + 1 * u'.val = k.val; rw [e, hu']; rfl)
  have h2 : (Rect.unit (s := S1x4x1024x64) (k1_off3 k) ![1, 1, 1024, 64] (k1_off3_inb k)).emb (ix4 u u' n d) 2 = n :=
    Fin.ext (by show (k1_off3 k) 2 + 1 * n.val = n.val; rw [e]; show 0 + 1 * n.val = n.val; omega)
  have h3 : (Rect.unit (s := S1x4x1024x64) (k1_off3 k) ![1, 1, 1024, 64] (k1_off3_inb k)).emb (ix4 u u' n d) 3 = d :=
    Fin.ext (by show (k1_off3 k) 3 + 1 * d.val = d.val; rw [e]; show 0 + 1 * d.val = d.val; omega)
  show AttnBlock.bhead v0 x1 x2 x3 x4 x5 x6 (⟨k.val, trip_lt k⟩ : Fin 4) n d
    = AttnBlock.bhead v0 x1 x2 x3 x4 x5 x6
        ((Rect.unit (s := S1x4x1024x64) (k1_off3 k) ![1, 1, 1024, 64] (k1_off3_inb k)).emb (ix4 u u' n d) 1)
        ((Rect.unit (s := S1x4x1024x64) (k1_off3 k) ![1, 1, 1024, 64] (k1_off3_inb k)).emb (ix4 u u' n d) 2)
        ((Rect.unit (s := S1x4x1024x64) (k1_off3 k) ![1, 1, 1024, 64] (k1_off3_inb k)).emb (ix4 u u' n d) 3)
  rw [h1, h2, h3]

/-- The whole-block load of the feature block reads the block. -/
theorem feat_load (arg1 : Memref sig .tc .vmem S1x1024x1024 .f32) (harg1 : arg1.IsWhole) (x0 : Vec Ideal S1x1024x1024 .f32) :
    View.readAt (Elt Ideal) arg1.view (Rect.unit (s := S1x1024x1024) ![0, 0, 0] S1x1024x1024.size inb_S1x1024x1024_S1x1024x1024_0_0_0).toLoadRect (harg1.unread x0) = x0 := by
  rw [View.readAt_eq_ld, harg1.read_unread]
  exact View.ld_unit_zero (S := S1x1024x1024) (funext fun a => by match a with | ⟨0, _⟩ => rfl | ⟨1, _⟩ => rfl | ⟨2, _⟩ => rfl) _ x0

/-- What the run leaves in the output's staging buffer is the block-level function of the input blocks. -/
theorem out_eq (c : Dev nD) (i : grid1.Coords) (arg1 : Memref sig .tc .vmem S1x1024x1024 .f32) (harg1 : arg1.IsWhole) (arg2 : Memref sig .tc .vmem S4x64x1024 .f32) (harg2 : arg2.IsWhole) (arg3 : Memref sig .tc .vmem S4x64 .f32) (harg3 : arg3.IsWhole) (arg4 : Memref sig .tc .vmem S4x64x1024 .f32) (harg4 : arg4.IsWhole) (arg5 : Memref sig .tc .vmem S4x64 .f32) (harg5 : arg5.IsWhole) (arg6 : Memref sig .tc .vmem S4x64x1024 .f32) (harg6 : arg6.IsWhole) (arg7 : Memref sig .tc .vmem S4x64 .f32) (harg7 : arg7.IsWhole) (arg8 : Memref sig .tc .vmem S1x4x1024x64 .f32) (harg8 : arg8.IsWhole)
    (x0 : Vec Ideal S1x1024x1024 .f32) (x1 : Vec Ideal S4x64x1024 .f32) (x2 : Vec Ideal S4x64 .f32) (x3 : Vec Ideal S4x64x1024 .f32) (x4 : Vec Ideal S4x64 .f32) (x5 : Vec Ideal S4x64x1024 .f32) (x6 : Vec Ideal S4x64 .f32) :
    out1_A_7 (F := Ideal) c i arg1 harg1 arg2 harg2 arg3 harg3 arg4 harg4 arg5 harg5 arg6 harg6 arg7 harg7 arg8 harg8 x0 x1 x2 x3 x4 x5 x6 = AttnBlock.blockOut x0 x1 x2 x3 x4 x5 x6 := by
  funext y
  unfold out1_A_7
  refine View.read_writes_apply_of_pieces VO1_7 VO1_7.junk (AttnBlock.blockOut x0 x1 x2 x3 x4 x5 x6) _ ?_ y
    (cover1_A_7 c i arg1 harg1 arg2 harg2 arg3 harg3 arg4 harg4 arg5 harg5 arg6 harg6 arg7 harg7 arg8 harg8 x0 x1 x2 x3 x4 x5 x6 y)
  intro p hp x
  unfold kernelRun1_A at hp
  dsimp only at hp
  obtain ⟨k, hk⟩ := mem_pb _ _ _ _ _ _ _ _ _ _ _ _ _ _ _ _ _ _ _ _ _ _ _ _ _ _ _ _ p hp
  have h := trip_agrees c i arg1 harg1 arg2 harg2 arg3 harg3 arg4 harg4 arg5 harg5 arg6 harg6 arg7 harg7 arg8 harg8 _ x1 x2 x3 x4 x5 x6 k p hk x
  rw [feat_load arg1 harg1 x0] at h
  exact h

/-- At every grid point: the output block after the body is the block-level function of the point's input blocks. -/
theorem body_eq (V : (c : Dev nD) → (b : Ref sig .tc) → Buf (Elt Ideal) ((c : Thread nD τ).loc b)) (c : Dev nD) (t : Fin cfg1.N) :
    outsAt1 (F := Ideal) V c t = AttnBlock.blockOut (iblk1 V c 0 t) (iblk1 V c 1 t) (iblk1 V c 2 t) (iblk1 V c 3 t) (iblk1 V c 4 t) (iblk1 V c 5 t) (iblk1 V c 6 t) := by
  unfold outsAt1
  exact out_eq _ _ _ _ _ _ _ _ _ _ _ _ _ _ _ _ _ _ _ _ _ _ _ _ _

end Cert.KernelIdeal.AttnBody1

end
-- ==== Proof.KernelValue.lean ====
/-
  The idealized kernel's run, read: its result buffer ends at the specification's `result` of the eight argument
  arrays as launched — the correlation of the attention of the query features (argument 1) with the attention of
  the key features (argument 0) — and the arguments end unchanged. The chain through the three regions' boundaries
  is closed here with what the two attention regions leave in their result arrays: at every grid point the block-level
  function of the point's input blocks, hence the whole-array attention of the region's feature array.
-/
import proofs.«167884_j42846593745002_1_alg».proof.Proof.KernelValueChain
import proofs.«167884_j42846593745002_1_alg».proof.Proof.KernelRun
import proofs.«167884_j42846593745002_1_alg».proof.Proof.AttnArray0
import proofs.«167884_j42846593745002_1_alg».proof.Proof.AttnArray1
import proofs.«167884_j42846593745002_1_alg».proof.Proof.AttnBody0
import proofs.«167884_j42846593745002_1_alg».proof.Proof.AttnBody1

set_option maxRecDepth 16384

noncomputable section

namespace Cert.KernelIdeal.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- THE KERNEL'S RESULT ARRAY after the run is the specification's `result` of the launch contents of the eight
    arguments: argument 0 the key features, argument 1 the query features. -/
theorem result_eq (c : Dev nD) :
    W3 (F := Ideal) m ρ c (Proc.devRef .tc main_v2) = Cert.Attn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  result_eq_of m ρ (fun V c => Cert.KernelIdeal.AttnArray0.attn_final V (fun c t => Cert.KernelIdeal.AttnBody0.body_eq V c t) c)
    (fun V c => Cert.KernelIdeal.AttnArray1.attn_final V (fun c t => Cert.KernelIdeal.AttnBody1.body_eq V c t) c) c

/-- The run, read: every weakly fair execution of @main terminates, nothing faulting, with the result buffer at the
    specification of the arguments and the arguments as launched. -/
theorem run : θ_run defs (onTc (τ := τ) (main (F := Ideal))) ⟨m, fun _ => 0, ρ⟩ (fun r => ∀ c : Dev nD,
      r.2.mem ((c.tc : Thread nD τ).loc main_v2) = Cert.Attn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩)
    (Cert.KernelIdeal.RunValue.run_named m ρ)

end Cert.KernelIdeal.KernelValue

end
-- ==== Proof.Claims.lean ====
/-
  The five claims.

  The two kernels' frames are the generated frame certificates; the reference's frame is its generated run with the
  result forgotten; the idealization rewrote no operation, so there is nothing to preserve. For the algebraic claim
  both programs end, from memories that agree on the eight arguments, with the result buffer at one and the same
  function of the arguments — the specification's `result`: the kernel by the chain through its three regions, the
  reference operation by operation.
-/
import proofs.«167884_j42846593745002_1_alg».proof.Defs
import proofs.«167884_j42846593745002_1_alg».proof.Proof.Gen.Kernel
import proofs.«167884_j42846593745002_1_alg».proof.Proof.Gen.Kernel.Frame
import proofs.«167884_j42846593745002_1_alg».proof.Proof.Gen.KernelIdeal
import proofs.«167884_j42846593745002_1_alg».proof.Proof.Gen.KernelIdeal.Frame
import proofs.«167884_j42846593745002_1_alg».proof.Proof.Gen.ReferenceIdeal
import proofs.«167884_j42846593745002_1_alg».proof.Proof.Gen.ReferenceIdeal.Run
import proofs.«167884_j42846593745002_1_alg».proof.Proof.Gen.Pre_finite_inputs
import proofs.«167884_j42846593745002_1_alg».proof.Proof.RefValue
import proofs.«167884_j42846593745002_1_alg».proof.Proof.KernelValue

noncomputable section

namespace Cert.Proof.Claims

open Idealize.ShloMosaic Idealize.ShloMosaic.TcCoe Idealize.SL.Sem

/-- The word-level kernel runs and leaves its arguments unchanged: its generated frame certificate. -/
theorem frame_p : Cert.frame_Kernel := fun m ρ _ => Cert.Kernel.Gen.frame m ρ

/-- The idealized kernel likewise. -/
theorem frame_pi : Cert.frame_KernelIdeal := fun m ρ _ => Cert.KernelIdeal.Gen.frame m ρ

/-- The reference runs and leaves its arguments unchanged: its generated run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories agreeing on the eight arguments, the idealized kernel and the reference
    both end with the result buffer at the specification's `result` of the arguments, and the arguments unchanged. -/
theorem algebraic : Cert.algebraic_KernelIdeal_ReferenceIdeal := by
  intro m ρ m' ρ' _ hagree
  refine ⟨fun c => Cert.Attn.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.RefValue.ref_eq, a0, a1, a2, a3, a4, a5, a6, a7]

/-- The five together, under the generated witnesses of the programs' stated side conditions. -/
theorem all :
    Cert.frame_Kernel (hKernel := Cert.Kernel.Gen.facts) (hPre_finite_inputs := Cert.Pre_finite_inputs.Gen.facts)
    ∧ Cert.frame_KernelIdeal (hKernelIdeal := Cert.KernelIdeal.Gen.facts) (hPre_finite_inputs := Cert.Pre_finite_inputs.Gen.facts)
    ∧ Cert.frame_ReferenceIdeal (hReferenceIdeal := Cert.ReferenceIdeal.Gen.facts) (hPre_finite_inputs := Cert.Pre_finite_inputs.Gen.facts)
    ∧ Cert.preserves_Kernel_KernelIdeal
    ∧ Cert.algebraic_KernelIdeal_ReferenceIdeal (hKernelIdeal := Cert.KernelIdeal.Gen.facts) (hReferenceIdeal := Cert.ReferenceIdeal.Gen.facts) (hPre_finite_inputs := Cert.Pre_finite_inputs.Gen.facts) :=
  ⟨frame_p, frame_pi, frame_ri, preserves, algebraic⟩

end Cert.Proof.Claims

end
-- ==== Proof.lean ====
/-
  The certificate's claim: a three-stage Pallas kernel (self-attention over the key features, self-attention over
  the query features, then the scaled correlation of the two results head by head, written side by side along the
  last axis) against its jnp reference, on the extended reals.

  Both programs compute one function of the eight argument arrays, stated once (Proof/Spec.lean): per batch entry and
  head, projections `x · Wᵀ + b`, scores `(q · kᵀ) / 8`, a softmax about the row maximum, the weighted sum of the
  value projections; then `(z_q · z_kᵀ) / 8` with the heads' blocks laid along the last axis. The kernel's side is read
  off its run region by region — what one grid point leaves in its block (a loop of four trips, one per head, for the
  attention regions), then the blocks assembled into the array, then the three regions chained through the buffers
  they hand on; the reference's side is read operation by operation. The two sides differ only by the order of the
  factors in the projections, by tiling, and by layout; no step needs the inputs to be finite. The frames are the
  generated ones, and the idealization rewrote no operation, so that conjunct is `True`.
-/
import proofs.«167884_j42846593745002_1_alg».proof.Defs
import proofs.«167884_j42846593745002_1_alg».proof.Proof.Gen.Kernel
import proofs.«167884_j42846593745002_1_alg».proof.Proof.Gen.Kernel.Skeleton
import proofs.«167884_j42846593745002_1_alg».proof.Proof.Gen.Kernel.Loops
import proofs.«167884_j42846593745002_1_alg».proof.Proof.Gen.Kernel.Launch
import proofs.«167884_j42846593745002_1_alg».proof.Proof.Gen.Kernel.Points
import proofs.«167884_j42846593745002_1_alg».proof.Proof.Gen.Kernel.Frame
import proofs.«167884_j42846593745002_1_alg».proof.Proof.Gen.KernelIdeal
import proofs.«167884_j42846593745002_1_alg».proof.Proof.Gen.KernelIdeal.Skeleton
import proofs.«167884_j42846593745002_1_alg».proof.Proof.Gen.KernelIdeal.Loops
import proofs.«167884_j42846593745002_1_alg».proof.Proof.Gen.KernelIdeal.Launch
import proofs.«167884_j42846593745002_1_alg».proof.Proof.Gen.KernelIdeal.Points
import proofs.«167884_j42846593745002_1_alg».proof.Proof.Gen.KernelIdeal.Frame
import proofs.«167884_j42846593745002_1_alg».proof.Proof.Gen.ReferenceIdeal
import proofs.«167884_j42846593745002_1_alg».proof.Proof.Gen.ReferenceIdeal.Run
import proofs.«167884_j42846593745002_1_alg».proof.Proof.Gen.ReferenceIdeal.Read
import proofs.«167884_j42846593745002_1_alg».proof.Proof.Gen.Pre_finite_inputs
import proofs.«167884_j42846593745002_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.all⟩

end Cert.Proof

end
